-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S50000x300 : Shape := ⟨2, ![50000, 300]⟩
abbrev S512x300 : Shape := ⟨2, ![512, 300]⟩
abbrev S512x1024 : Shape := ⟨2, ![512, 1024]⟩
abbrev S512 : Shape := ⟨1, ![512]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S512x300 : S_.BroadcastsInDim S512x300 (![] : Fin 0 → Fin S512x300.rank)
  reducesTo_S512x300_S_d0_1 : S512x300.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : IVec S256x256 32) (main_arg1 : FVec F S50000x300 .f32) (main_arg2 : FVec F S512x300 .f32) (main_arg3 : FVec F S512x1024 .f32) (main_arg4 : FVec F S512 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S512x300 .f32 := Host.absf main_arg2
  let main_cst_0 : FVec F S_ .f32 := constant S_ .f32 0x7F800000#32
  let main_v5 : FVec F S512x300 .f32 := broadcastInDim S512x300 ![] bcast_S_S512x300 main_cst_0
  let main_v6 : IVec S512x300 1 := cmpf .olt main_v4 main_v5
  let main_c_1 : IVec S_ 1 := constantI S_ 1 1#1
  let main_v7 : IVec S_ 1 := (fun x v => Host.reduce IntOp.andi x v reducesTo_S512x300_S_d0_1 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S256x256 : Shape := ⟨2, ![256, 256]⟩
abbrev S50000x300 : Shape := ⟨2, ![50000, 300]⟩
abbrev S512x300 : Shape := ⟨2, ![512, 300]⟩
abbrev S512x1024 : Shape := ⟨2, ![512, 1024]⟩
abbrev S512 : Shape := ⟨1, ![512]⟩
abbrev S_ : Shape := ⟨0, ![]⟩
abbrev S256x256x1 : Shape := ⟨3, ![256, 256, 1]⟩
abbrev S1 : Shape := ⟨1, ![1]⟩
abbrev S1x1x1 : Shape := ⟨3, ![1, 1, 1]⟩
abbrev S256x256x300 : Shape := ⟨3, ![256, 256, 300]⟩
abbrev S256x256x384 : Shape := ⟨3, ![256, 256, 384]⟩
abbrev S300x512 : Shape := ⟨2, ![300, 512]⟩
abbrev S384x512 : Shape := ⟨2, ![384, 512]⟩
abbrev S1024x512 : Shape := ⟨2, ![1024, 512]⟩
abbrev S1x512 : Shape := ⟨2, ![1, 512]⟩
abbrev S256x512 : Shape := ⟨2, ![256, 512]⟩
abbrev S16x256x384 : Shape := ⟨3, ![16, 256, 384]⟩
abbrev S16x512 : Shape := ⟨2, ![16, 512]⟩
abbrev S4096x384 : Shape := ⟨2, ![4096, 384]⟩
abbrev S4096x512 : Shape := ⟨2, ![4096, 512]⟩
abbrev S16x256x512 : Shape := ⟨3, ![16, 256, 512]⟩
abbrev S16x128x1024 : Shape := ⟨3, ![16, 128, 1024]⟩
abbrev S2048x1024 : Shape := ⟨2, ![2048, 1024]⟩
abbrev S2048x512 : Shape := ⟨2, ![2048, 512]⟩
abbrev S16x128x512 : Shape := ⟨3, ![16, 128, 512]⟩
abbrev S16x64x1024 : Shape := ⟨3, ![16, 64, 1024]⟩
abbrev S1024x1024 : Shape := ⟨2, ![1024, 1024]⟩
abbrev S16x64x512 : Shape := ⟨3, ![16, 64, 512]⟩
abbrev S16x32x1024 : Shape := ⟨3, ![16, 32, 1024]⟩
abbrev S512x512 : Shape := ⟨2, ![512, 512]⟩
abbrev S16x32x512 : Shape := ⟨3, ![16, 32, 512]⟩
abbrev S16x16x1024 : Shape := ⟨3, ![16, 16, 1024]⟩
abbrev S256x1024 : Shape := ⟨2, ![256, 1024]⟩
abbrev S16x16x512 : Shape := ⟨3, ![16, 16, 512]⟩
abbrev S16x8x1024 : Shape := ⟨3, ![16, 8, 1024]⟩
abbrev S128x1024 : Shape := ⟨2, ![128, 1024]⟩
abbrev S128x512 : Shape := ⟨2, ![128, 512]⟩
abbrev S16x8x512 : Shape := ⟨3, ![16, 8, 512]⟩
abbrev S16x4x1024 : Shape := ⟨3, ![16, 4, 1024]⟩
abbrev S64x1024 : Shape := ⟨2, ![64, 1024]⟩
abbrev S64x512 : Shape := ⟨2, ![64, 512]⟩
abbrev S16x4x512 : Shape := ⟨3, ![16, 4, 512]⟩
abbrev S16x2x1024 : Shape := ⟨3, ![16, 2, 1024]⟩
abbrev S32x1024 : Shape := ⟨2, ![32, 1024]⟩
abbrev S32x512 : Shape := ⟨2, ![32, 512]⟩
abbrev S16x2x512 : Shape := ⟨3, ![16, 2, 512]⟩
abbrev S16x1x1024 : Shape := ⟨3, ![16, 1, 1024]⟩
abbrev S16x1024 : Shape := ⟨2, ![16, 1024]⟩
abbrev S16x1x512 : Shape := ⟨3, ![16, 1, 512]⟩

abbrev nBuf : Space → Nat
  | .hbm => 41
  | .vmem => 7
  | .smem => 0
  | _ => 0

abbrev bufTy : (tb : Table) → Fin (tcTables nBuf tb) → BufTy
  | .hbm, ⟨0, _⟩ => ⟨S256x256, .i32⟩
  | .hbm, ⟨1, _⟩ => ⟨S50000x300, .f32⟩
  | .hbm, ⟨2, _⟩ => ⟨S512x300, .f32⟩
  | .hbm, ⟨3, _⟩ => ⟨S512x1024, .f32⟩
  | .hbm, ⟨4, _⟩ => ⟨S512, .f32⟩
  | .hbm, ⟨5, _⟩ => ⟨S_, .i32⟩
  | .hbm, ⟨6, _⟩ => ⟨S256x256, .i32⟩
  | .hbm, ⟨7, _⟩ => ⟨S256x256, .i1⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256x1, .i32⟩
  | .hbm, ⟨13, _⟩ => ⟨S1, .i32⟩
  | .hbm, ⟨14, _⟩ => ⟨S_, .i32⟩
  | .hbm, ⟨15, _⟩ => ⟨S256x256x1, .i32⟩
  | .hbm, ⟨16, _⟩ => ⟨S256x256x1, .i1⟩
  | .hbm, ⟨17, _⟩ => ⟨S1x1x1, .i32⟩
  | .hbm, ⟨18, _⟩ => ⟨S256x256x1, .i32⟩
  | .hbm, ⟨19, _⟩ => ⟨S256x256x1, .i1⟩
  | .hbm, ⟨20, _⟩ => ⟨S256x256x1, .i1⟩
  | .hbm, ⟨21, _⟩ => ⟨S_, .i1⟩
  | .hbm, ⟨22, _⟩ => ⟨S256x256, .i1⟩
  | .hbm, ⟨23, _⟩ => ⟨S256x256x300, .f32⟩
  | .hbm, ⟨24, _⟩ => ⟨S256x256x300, .i1⟩
  | .hbm, ⟨25, _⟩ => ⟨S_, .f32⟩
  | .hbm, ⟨26, _⟩ => ⟨S256x256x300, .f32⟩
  | .hbm, ⟨27, _⟩ => ⟨S256x256x300, .f32⟩
  | .hbm, ⟨28, _⟩ => ⟨S256x256x300, .bf16⟩
  | .hbm, ⟨29, _⟩ => ⟨S_, .i32⟩
  | .hbm, ⟨30, _⟩ => ⟨S_, .bf16⟩
  | .hbm, ⟨31, _⟩ => ⟨S256x256x384, .bf16⟩
  | .hbm, ⟨32, _⟩ => ⟨S300x512, .f32⟩
  | .hbm, ⟨33, _⟩ => ⟨S300x512, .bf16⟩
  | .hbm, ⟨34, _⟩ => ⟨S_, .i32⟩
  | .hbm, ⟨35, _⟩ => ⟨S_, .bf16⟩
  | .hbm, ⟨36, _⟩ => ⟨S384x512, .bf16⟩
  | .hbm, ⟨37, _⟩ => ⟨S1024x512, .f32⟩
  | .hbm, ⟨38, _⟩ => ⟨S1024x512, .bf16⟩
  | .hbm, ⟨39, _⟩ => ⟨S1x512, .f32⟩
  | .hbm, ⟨40, _⟩ => ⟨S256x512, .f32⟩
  | .local _ .vmem, ⟨0, _⟩ => ⟨S16x256x384, .bf16⟩
  | .local _ .vmem, ⟨1, _⟩ => ⟨S16x256x384, .bf16⟩
  | .local _ .vmem, ⟨2, _⟩ => ⟨S384x512, .bf16⟩
  | .local _ .vmem, ⟨3, _⟩ => ⟨S1024x512, .bf16⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_c : Ref sig .tc := ⟨.hbm, 29, rfl⟩
abbrev main_call1_v0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c_0 : Ref sig .tc := ⟨.hbm, 34, rfl⟩
abbrev main_call2_v0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  h_S_ : 0 < S_.numel
  bcast_S256x256_S256x256x300_0_1 : S256x256.BroadcastsInDim S256x256x300 (![0, 1] : Fin 2 → Fin S256x256x300.rank)
  bcast_S_S256x256x300 : S_.BroadcastsInDim S256x256x300 (![] : Fin 0 → Fin S256x256x300.rank)
  bitsLt_bf16_f32 : FTy.bits .bf16 < FTy.bits .f32
  pads_S256x256x300_S256x256x384_000_000_0840 : S256x256x300.Pads (![0, 0, 0] : Fin 3 → Nat) ![0, 0, 84] ![0, 0, 0] S256x256x384
  transposes_S512x300_S300x512_1_0 : S512x300.Transposes [1, 0] S300x512
  pads_S300x512_S384x512_0840_000 : S300x512.Pads (![0, 0] : Fin 2 → Nat) ![84, 0] ![0, 0] S384x512
  transposes_S512x1024_S1024x512_1_0 : S512x1024.Transposes [1, 0] S1024x512
  shapeCasts_S512_S1x512 : S512.ShapeCasts S1x512
  inb_S16x256x384_S16x256x384_0_0_0 : ∀ a, (![0, 0, 0] : Fin 3 → Nat) a + S16x256x384.size a ≤ S16x256x384.size a
  h_S16x256x384 : 0 < S16x256x384.numel
  shapeCasts_S16x256x384_S16x256x384 : S16x256x384.ShapeCasts S16x256x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  shapeCasts_S16x256x384_S4096x384 : S16x256x384.ShapeCasts S4096x384
  shapeCasts_S4096x512_S16x256x512 : S4096x512.ShapeCasts S16x256x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S16x256x512_S16x128x1024 : S16x256x512.ShapeCasts S16x128x1024
  shapeCasts_S16x128x1024_S2048x1024 : S16x128x1024.ShapeCasts S2048x1024
  broadcasts_S1x512_S2048x512 : S1x512.Broadcasts S2048x512
  shapeCasts_S2048x512_S16x128x512 : S2048x512.ShapeCasts S16x128x512
  shapeCasts_S16x128x512_S16x64x1024 : S16x128x512.ShapeCasts S16x64x1024
  shapeCasts_S16x64x1024_S1024x1024 : S16x64x1024.ShapeCasts S1024x1024
  broadcasts_S1x512_S1024x512 : S1x512.Broadcasts S1024x512
  shapeCasts_S1024x512_S16x64x512 : S1024x512.ShapeCasts S16x64x512
  shapeCasts_S16x64x512_S16x32x1024 : S16x64x512.ShapeCasts S16x32x1024
  shapeCasts_S16x32x1024_S512x1024 : S16x32x1024.ShapeCasts S512x1024
  broadcasts_S1x512_S512x512 : S1x512.Broadcasts S512x512
  shapeCasts_S512x512_S16x32x512 : S512x512.ShapeCasts S16x32x512
  shapeCasts_S16x32x512_S16x16x1024 : S16x32x512.ShapeCasts S16x16x1024
  shapeCasts_S16x16x1024_S256x1024 : S16x16x1024.ShapeCasts S256x1024
  broadcasts_S1x512_S256x512 : S1x512.Broadcasts S256x512
  shapeCasts_S256x512_S16x16x512 : S256x512.ShapeCasts S16x16x512
  shapeCasts_S16x16x512_S16x8x1024 : S16x16x512.ShapeCasts S16x8x1024
  shapeCasts_S16x8x1024_S128x1024 : S16x8x1024.ShapeCasts S128x1024
  broadcasts_S1x512_S128x512 : S1x512.Broadcasts S128x512
  shapeCasts_S128x512_S16x8x512 : S128x512.ShapeCasts S16x8x512
  shapeCasts_S16x8x512_S16x4x1024 : S16x8x512.ShapeCasts S16x4x1024
  shapeCasts_S16x4x1024_S64x1024 : S16x4x1024.ShapeCasts S64x1024
  broadcasts_S1x512_S64x512 : S1x512.Broadcasts S64x512
  shapeCasts_S64x512_S16x4x512 : S64x512.ShapeCasts S16x4x512
  shapeCasts_S16x4x512_S16x2x1024 : S16x4x512.ShapeCasts S16x2x1024
  shapeCasts_S16x2x1024_S32x1024 : S16x2x1024.ShapeCasts S32x1024
  broadcasts_S1x512_S32x512 : S1x512.Broadcasts S32x512
  shapeCasts_S32x512_S16x2x512 : S32x512.ShapeCasts S16x2x512
  shapeCasts_S16x2x512_S16x1x1024 : S16x2x512.ShapeCasts S16x1x1024
  shapeCasts_S16x1x1024_S16x1024 : S16x1x1024.ShapeCasts S16x1024
  broadcasts_S1x512_S16x512 : S1x512.Broadcasts S16x512
  shapeCasts_S16x512_S16x1x512 : S16x512.ShapeCasts S16x1x512
  shapeCasts_S16x1x512_S16x512 : S16x1x512.ShapeCasts S16x512
  inb_S16x512_S16x512_0_0 : ∀ a, (![0, 0] : Fin 2 → Nat) a + S16x512.size a ≤ S16x512.size a
  h_S16x512 : 0 < S16x512.numel
  gather_S50000x300_S256x256x1_S256x256x300_2_0_n_n_0_2_1300_wf : GatherDims.WF S50000x300 S256x256x1 S256x256x300 [2] [0] [] [0] [] 2 ![1, 300]
  dot_S4096x384_S384x512_S4096x512_1_0_0_1_n_n_wf : DotDims.WF S4096x384 S384x512 S4096x512 [1] [0] [0] [1] [] []
  dot_S2048x1024_S1024x512_S2048x512_1_0_0_1_n_n_wf : DotDims.WF S2048x1024 S1024x512 S2048x512 [1] [0] [0] [1] [] []
  dot_S1024x1024_S1024x512_S1024x512_1_0_0_1_n_n_wf : DotDims.WF S1024x1024 S1024x512 S1024x512 [1] [0] [0] [1] [] []
  dot_S512x1024_S1024x512_S512x512_1_0_0_1_n_n_wf : DotDims.WF S512x1024 S1024x512 S512x512 [1] [0] [0] [1] [] []
  dot_S256x1024_S1024x512_S256x512_1_0_0_1_n_n_wf : DotDims.WF S256x1024 S1024x512 S256x512 [1] [0] [0] [1] [] []
  dot_S128x1024_S1024x512_S128x512_1_0_0_1_n_n_wf : DotDims.WF S128x1024 S1024x512 S128x512 [1] [0] [0] [1] [] []
  dot_S64x1024_S1024x512_S64x512_1_0_0_1_n_n_wf : DotDims.WF S64x1024 S1024x512 S64x512 [1] [0] [0] [1] [] []
  dot_S32x1024_S1024x512_S32x512_1_0_0_1_n_n_wf : DotDims.WF S32x1024 S1024x512 S32x512 [1] [0] [0] [1] [] []
  dot_S16x1024_S1024x512_S16x512_1_0_0_1_n_n_wf : DotDims.WF S16x1024 S1024x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x384.size a ≤ S256x256x384.size a
  hwx0_0 : ∀ i : grid0.Coords, EltTy.bits .bf16 = 32 ∨ (Rect.block (s := S256x256x384) S16x256x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S256x512.size a
  hwx0_4 : ∀ i : grid0.Coords, EltTy.bits .f32 = 32 ∨ (Rect.block (s := S256x512) S16x512.size (cc0_transform_4 i) (hinb0_4 i)).WholeWords (EltTy.packing .f32)

variable [Facts₀]

def gather_S50000x300_S256x256x1_S256x256x300_2_0_n_n_0_2_1300 : GatherDims S50000x300 S256x256x1 S256x256x300 where
  offsetDims := [2]
  collapsedSliceDims := [0]
  operandBatchingDims := []
  startIndicesBatchingDims := []
  startIndexMap := [0]
  indexVectorDim := 2
  sliceSizes := ![1, 300]
  wf := gather_S50000x300_S256x256x1_S256x256x300_2_0_n_n_0_2_1300_wf
def dot_S4096x384_S384x512_S4096x512_1_0_0_1_n_n : DotDims S4096x384 S384x512 S4096x512 where
  lhsContracting := [1]
  rhsContracting := [0]
  lhsNonContracting := [0]
  rhsNonContracting := [1]
  lhsBatch := []
  rhsBatch := []
  wf := dot_S4096x384_S384x512_S4096x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

abbrev win0_0 : Pipeline.Window sig grid0 :=
  Pipeline.Window.ofSpec (Memref.whole main_v2) S16x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256 : Shape := ⟨2, ![256, 256]⟩
abbrev S50000x300 : Shape := ⟨2, ![50000, 300]⟩
abbrev S512x300 : Shape := ⟨2, ![512, 300]⟩
abbrev S512x1024 : Shape := ⟨2, ![512, 1024]⟩
abbrev S512 : Shape := ⟨1, ![512]⟩
abbrev S_ : Shape := ⟨0, ![]⟩
abbrev S256x256x1 : Shape := ⟨3, ![256, 256, 1]⟩
abbrev S1 : Shape := ⟨1, ![1]⟩
abbrev S1x1x1 : Shape := ⟨3, ![1, 1, 1]⟩
abbrev S256x256x300 : Shape := ⟨3, ![256, 256, 300]⟩
abbrev S256x256x512 : Shape := ⟨3, ![256, 256, 512]⟩
abbrev S256x128x1024 : Shape := ⟨3, ![256, 128, 1024]⟩
abbrev S256x128x512 : Shape := ⟨3, ![256, 128, 512]⟩
abbrev S1x1x512 : Shape := ⟨3, ![1, 1, 512]⟩
abbrev S256x64x1024 : Shape := ⟨3, ![256, 64, 1024]⟩
abbrev S256x64x512 : Shape := ⟨3, ![256, 64, 512]⟩
abbrev S256x32x1024 : Shape := ⟨3, ![256, 32, 1024]⟩
abbrev S256x32x512 : Shape := ⟨3, ![256, 32, 512]⟩
abbrev S256x16x1024 : Shape := ⟨3, ![256, 16, 1024]⟩
abbrev S256x16x512 : Shape := ⟨3, ![256, 16, 512]⟩
abbrev S256x8x1024 : Shape := ⟨3, ![256, 8, 1024]⟩
abbrev S256x8x512 : Shape := ⟨3, ![256, 8, 512]⟩
abbrev S256x4x1024 : Shape := ⟨3, ![256, 4, 1024]⟩
abbrev S256x4x512 : Shape := ⟨3, ![256, 4, 512]⟩
abbrev S256x2x1024 : Shape := ⟨3, ![256, 2, 1024]⟩
abbrev S256x2x512 : Shape := ⟨3, ![256, 2, 512]⟩
abbrev S256x1x1024 : Shape := ⟨3, ![256, 1, 1024]⟩
abbrev S256x1x512 : Shape := ⟨3, ![256, 1, 512]⟩
abbrev S256x512 : Shape := ⟨2, ![256, 512]⟩

abbrev nBuf : Space → Nat
  | .hbm => 70
  | .vmem => 0
  | .smem => 0
  | _ => 0

abbrev bufTy : (tb : Table) → Fin (tcTables nBuf tb) → BufTy
  | .hbm, ⟨0, _⟩ => ⟨S256x256, .i32⟩
  | .hbm, ⟨1, _⟩ => ⟨S50000x300, .f32⟩
  | .hbm, ⟨2, _⟩ => ⟨S512x300, .f32⟩
  | .hbm, ⟨3, _⟩ => ⟨S512x1024, .f32⟩
  | .hbm, ⟨4, _⟩ => ⟨S512, .f32⟩
  | .hbm, ⟨5, _⟩ => ⟨S_, .i32⟩
  | .hbm, ⟨6, _⟩ => ⟨S256x256, .i32⟩
  | .hbm, ⟨7, _⟩ => ⟨S256x256, .i1⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256x1, .i32⟩
  | .hbm, ⟨13, _⟩ => ⟨S1, .i32⟩
  | .hbm, ⟨14, _⟩ => ⟨S_, .i32⟩
  | .hbm, ⟨15, _⟩ => ⟨S256x256x1, .i32⟩
  | .hbm, ⟨16, _⟩ => ⟨S256x256x1, .i1⟩
  | .hbm, ⟨17, _⟩ => ⟨S1x1x1, .i32⟩
  | .hbm, ⟨18, _⟩ => ⟨S256x256x1, .i32⟩
  | .hbm, ⟨19, _⟩ => ⟨S256x256x1, .i1⟩
  | .hbm, ⟨20, _⟩ => ⟨S256x256x1, .i1⟩
  | .hbm, ⟨21, _⟩ => ⟨S_, .i1⟩
  | .hbm, ⟨22, _⟩ => ⟨S256x256, .i1⟩
  | .hbm, ⟨23, _⟩ => ⟨S256x256x300, .f32⟩
  | .hbm, ⟨24, _⟩ => ⟨S256x256x300, .i1⟩
  | .hbm, ⟨25, _⟩ => ⟨S_, .f32⟩
  | .hbm, ⟨26, _⟩ => ⟨S256x256x300, .f32⟩
  | .hbm, ⟨27, _⟩ => ⟨S256x256x300, .f32⟩
  | .hbm, ⟨28, _⟩ => ⟨S256x256x512, .f32⟩
  | .hbm, ⟨29, _⟩ => ⟨S256x128x1024, .f32⟩
  | .hbm, ⟨30, _⟩ => ⟨S256x128x512, .f32⟩
  | .hbm, ⟨31, _⟩ => ⟨S1x1x512, .f32⟩
  | .hbm, ⟨32, _⟩ => ⟨S256x128x512, .f32⟩
  | .hbm, ⟨33, _⟩ => ⟨S256x128x512, .f32⟩
  | .hbm, ⟨34, _⟩ => ⟨S256x64x1024, .f32⟩
  | .hbm, ⟨35, _⟩ => ⟨S256x64x512, .f32⟩
  | .hbm, ⟨36, _⟩ => ⟨S1x1x512, .f32⟩
  | .hbm, ⟨37, _⟩ => ⟨S256x64x512, .f32⟩
  | .hbm, ⟨38, _⟩ => ⟨S256x64x512, .f32⟩
  | .hbm, ⟨39, _⟩ => ⟨S256x32x1024, .f32⟩
  | .hbm, ⟨40, _⟩ => ⟨S256x32x512, .f32⟩
  | .hbm, ⟨41, _⟩ => ⟨S1x1x512, .f32⟩
  | .hbm, ⟨42, _⟩ => ⟨S256x32x512, .f32⟩
  | .hbm, ⟨43, _⟩ => ⟨S256x32x512, .f32⟩
  | .hbm, ⟨44, _⟩ => ⟨S256x16x1024, .f32⟩
  | .hbm, ⟨45, _⟩ => ⟨S256x16x512, .f32⟩
  | .hbm, ⟨46, _⟩ => ⟨S1x1x512, .f32⟩
  | .hbm, ⟨47, _⟩ => ⟨S256x16x512, .f32⟩
  | .hbm, ⟨48, _⟩ => ⟨S256x16x512, .f32⟩
  | .hbm, ⟨49, _⟩ => ⟨S256x8x1024, .f32⟩
  | .hbm, ⟨50, _⟩ => ⟨S256x8x512, .f32⟩
  | .hbm, ⟨51, _⟩ => ⟨S1x1x512, .f32⟩
  | .hbm, ⟨52, _⟩ => ⟨S256x8x512, .f32⟩
  | .hbm, ⟨53, _⟩ => ⟨S256x8x512, .f32⟩
  | .hbm, ⟨54, _⟩ => ⟨S256x4x1024, .f32⟩
  | .hbm, ⟨55, _⟩ => ⟨S256x4x512, .f32⟩
  | .hbm, ⟨56, _⟩ => ⟨S1x1x512, .f32⟩
  | .hbm, ⟨57, _⟩ => ⟨S256x4x512, .f32⟩
  | .hbm, ⟨58, _⟩ => ⟨S256x4x512, .f32⟩
  | .hbm, ⟨59, _⟩ => ⟨S256x2x1024, .f32⟩
  | .hbm, ⟨60, _⟩ => ⟨S256x2x512, .f32⟩
  | .hbm, ⟨61, _⟩ => ⟨S1x1x512, .f32⟩
  | .hbm, ⟨62, _⟩ => ⟨S256x2x512, .f32⟩
  | .hbm, ⟨63, _⟩ => ⟨S256x2x512, .f32⟩
  | .hbm, ⟨64, _⟩ => ⟨S256x1x1024, .f32⟩
  | .hbm, ⟨65, _⟩ => ⟨S256x1x512, .f32⟩
  | .hbm, ⟨66, _⟩ => ⟨S1x1x512, .f32⟩
  | .hbm, ⟨67, _⟩ => ⟨S256x1x512, .f32⟩
  | .hbm, ⟨68, _⟩ => ⟨S256x1x512, .f32⟩
  | .hbm, ⟨69, _⟩ => ⟨S256x512, .f32⟩
  | _, _ => ⟨S256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  h_S_ : 0 < S_.numel
  bcast_S256x256_S256x256x300_0_1 : S256x256.BroadcastsInDim S256x256x300 (![0, 1] : Fin 2 → Fin S256x256x300.rank)
  bcast_S_S256x256x300 : S_.BroadcastsInDim S256x256x300 (![] : Fin 0 → Fin S256x256x300.rank)
  shapeCasts_S256x256x512_S256x128x1024 : S256x256x512.ShapeCasts S256x128x1024
  bcast_S512_S1x1x512_2 : S512.BroadcastsInDim S1x1x512 (![2] : Fin 1 → Fin S1x1x512.rank)
  bcast_S1x1x512_S256x128x512_0_1_2 : S1x1x512.BroadcastsInDim S256x128x512 (![0, 1, 2] : Fin 3 → Fin S256x128x512.rank)
  shapeCasts_S256x128x512_S256x64x1024 : S256x128x512.ShapeCasts S256x64x1024
  bcast_S1x1x512_S256x64x512_0_1_2 : S1x1x512.BroadcastsInDim S256x64x512 (![0, 1, 2] : Fin 3 → Fin S256x64x512.rank)
  shapeCasts_S256x64x512_S256x32x1024 : S256x64x512.ShapeCasts S256x32x1024
  bcast_S1x1x512_S256x32x512_0_1_2 : S1x1x512.BroadcastsInDim S256x32x512 (![0, 1, 2] : Fin 3 → Fin S256x32x512.rank)
  shapeCasts_S256x32x512_S256x16x1024 : S256x32x512.ShapeCasts S256x16x1024
  bcast_S1x1x512_S256x16x512_0_1_2 : S1x1x512.BroadcastsInDim S256x16x512 (![0, 1, 2] : Fin 3 → Fin S256x16x512.rank)
  shapeCasts_S256x16x512_S256x8x1024 : S256x16x512.ShapeCasts S256x8x1024
  bcast_S1x1x512_S256x8x512_0_1_2 : S1x1x512.BroadcastsInDim S256x8x512 (![0, 1, 2] : Fin 3 → Fin S256x8x512.rank)
  shapeCasts_S256x8x512_S256x4x1024 : S256x8x512.ShapeCasts S256x4x1024
  bcast_S1x1x512_S256x4x512_0_1_2 : S1x1x512.BroadcastsInDim S256x4x512 (![0, 1, 2] : Fin 3 → Fin S256x4x512.rank)
  shapeCasts_S256x4x512_S256x2x1024 : S256x4x512.ShapeCasts S256x2x1024
  bcast_S1x1x512_S256x2x512_0_1_2 : S1x1x512.BroadcastsInDim S256x2x512 (![0, 1, 2] : Fin 3 → Fin S256x2x512.rank)
  shapeCasts_S256x2x512_S256x1x1024 : S256x2x512.ShapeCasts S256x1x1024
  bcast_S1x1x512_S256x1x512_0_1_2 : S1x1x512.BroadcastsInDim S256x1x512 (![0, 1, 2] : Fin 3 → Fin S256x1x512.rank)
  shapeCasts_S256x1x512_S256x512 : S256x1x512.ShapeCasts S256x512
  gather_S50000x300_S256x256x1_S256x256x300_2_0_n_n_0_2_1300_wf : GatherDims.WF S50000x300 S256x256x1 S256x256x300 [2] [0] [] [0] [] 2 ![1, 300]
  dot_S256x256x300_S512x300_S256x256x512_2_1_01_0_n_n_wf : DotDims.WF S256x256x300 S512x300 S256x256x512 [2] [1] [0, 1] [0] [] []
  dot_S256x128x1024_S512x1024_S256x128x512_2_1_01_0_n_n_wf : DotDims.WF S256x128x1024 S512x1024 S256x128x512 [2] [1] [0, 1] [0] [] []
  dot_S256x64x1024_S512x1024_S256x64x512_2_1_01_0_n_n_wf : DotDims.WF S256x64x1024 S512x1024 S256x64x512 [2] [1] [0, 1] [0] [] []
  dot_S256x32x1024_S512x1024_S256x32x512_2_1_01_0_n_n_wf : DotDims.WF S256x32x1024 S512x1024 S256x32x512 [2] [1] [0, 1] [0] [] []
  dot_S256x16x1024_S512x1024_S256x16x512_2_1_01_0_n_n_wf : DotDims.WF S256x16x1024 S512x1024 S256x16x512 [2] [1] [0, 1] [0] [] []
  dot_S256x8x1024_S512x1024_S256x8x512_2_1_01_0_n_n_wf : DotDims.WF S256x8x1024 S512x1024 S256x8x512 [2] [1] [0, 1] [0] [] []
  dot_S256x4x1024_S512x1024_S256x4x512_2_1_01_0_n_n_wf : DotDims.WF S256x4x1024 S512x1024 S256x4x512 [2] [1] [0, 1] [0] [] []
  dot_S256x2x1024_S512x1024_S256x2x512_2_1_01_0_n_n_wf : DotDims.WF S256x2x1024 S512x1024 S256x2x512 [2] [1] [0, 1] [0] [] []
  dot_S256x1x1024_S512x1024_S256x1x512_2_1_01_0_n_n_wf : DotDims.WF S256x1x1024 S512x1024 S256x1x512 [2] [1] [0, 1] [0] [] []

variable [Facts₀]

def gather_S50000x300_S256x256x1_S256x256x300_2_0_n_n_0_2_1300 : GatherDims S50000x300 S256x256x1 S256x256x300 where
  offsetDims := [2]
  collapsedSliceDims := [0]
  operandBatchingDims := []
  startIndicesBatchingDims := []
  startIndexMap := [0]
  indexVectorDim := 2
  sliceSizes := ![1, 300]
  wf := gather_S50000x300_S256x256x1_S256x256x300_2_0_n_n_0_2_1300_wf
def dot_S256x256x300_S512x300_S256x256x512_2_1_01_0_n_n : DotDims S256x256x300 S512x300 S256x256x512 where
  lhsContracting := [2]
  rhsContracting := [1]
  lhsNonContracting := [0, 1]
  rhsNonContracting := [0]
  lhsBatch := []
  rhsBatch := []
  wf := dot_S256x256x300_S512x300_S256x256x512_2_1_01_0_n_n_wf
def dot_S256x128x1024_S512x1024_S256x128x512_2_1_01_0_n_n : DotDims S256x128x1024 S512x1024 S256x128x512 where
  lhsContracting := [2]
  rhsContracting := [1]
  lhsNonContracting := [0, 1]
  rhsNonContracting := [0]
  lhsBatch := []
  rhsBatch := []
  wf := dot_S256x128x1024_S512x1024_S256x128x512_2_1_01_0_n_n_wf
def dot_S256x64x1024_S512x1024_S256x64x512_2_1_01_0_n_n : DotDims S256x64x1024 S512x1024 S256x64x512 where
  lhsContracting := [2]
  rhsContracting := [1]
  lhsNonContracting := [0, 1]
  rhsNonContracting := [0]
  lhsBatch := []
  rhsBatch := []
  wf := dot_S256x64x1024_S512x1024_S256x64x512_2_1_01_0_n_n_wf
def dot_S256x32x1024_S512x1024_S256x32x512_2_1_01_0_n_n : DotDims S256x32x1024 S512x1024 S256x32x512 where
  lhsContracting := [2]
  rhsContracting := [1]
  lhsNonContracting := [0, 1]
  rhsNonContracting := [0]
  lhsBatch := []
  rhsBatch := []
  wf := dot_S256x32x1024_S512x1024_S256x32x512_2_1_01_0_n_n_wf
def dot_S256x16x1024_S512x1024_S256x16x512_2_1_01_0_n_n : DotDims S256x16x1024 S512x1024 S256x16x512 where
  lhsContracting := [2]
  rhsContracting := [1]
  lhsNonContracting := [0, 1]
  rhsNonContracting := [0]
  lhsBatch := []
  rhsBatch := []
  wf := dot_S256x16x1024_S512x1024_S256x16x512_2_1_01_0_n_n_wf
def dot_S256x8x1024_S512x1024_S256x8x512_2_1_01_0_n_n : DotDims S256x8x1024 S512x1024 S256x8x512 where
  lhsContracting := [2]
  rhsContracting := [1]
  lhsNonContracting := [0, 1]
  rhsNonContracting := [0]
  lhsBatch := []
  rhsBatch := []
  wf := dot_S256x8x1024_S512x1024_S256x8x512_2_1_01_0_n_n_wf
def dot_S256x4x1024_S512x1024_S256x4x512_2_1_01_0_n_n : DotDims S256x4x1024 S512x1024 S256x4x512 where
  lhsContracting := [2]
  rhsContracting := [1]
  lhsNonContracting := [0, 1]
  rhsNonContracting := [0]
  lhsBatch := []
  rhsBatch := []
  wf := dot_S256x4x1024_S512x1024_S256x4x512_2_1_01_0_n_n_wf
def dot_S256x2x1024_S512x1024_S256x2x512_2_1_01_0_n_n : DotDims S256x2x1024 S512x1024 S256x2x512 where
  lhsContracting := [2]
  rhsContracting := [1]
  lhsNonContracting := [0, 1]
  rhsNonContracting := [0]
  lhsBatch := []
  rhsBatch := []
  wf := dot_S256x2x1024_S512x1024_S256x2x512_2_1_01_0_n_n_wf
def dot_S256x1x1024_S512x1024_S256x1x512_2_1_01_0_n_n : DotDims S256x1x1024 S512x1024 S256x1x512 where
  lhsContracting := [2]
  rhsContracting := [1]
  lhsNonContracting := [0, 1]
  rhsNonContracting := [0]
  lhsBatch := []
  rhsBatch := []
  wf := dot_S256x1x1024_S512x1024_S256x1x512_2_1_01_0_n_n_wf

class Facts : Prop extends Facts₀ where

variable [Facts]
-- ==== Proof.Flat.lean ====
/-
  Row-major reading of a vector, and the two matrix products read through it.

  A vector over a shape is read at a natural number `p` as its element at row-major position `p` (zero past the
  end).  A shape cast keeps every row-major position, so it keeps this reading; an index written by coordinates
  sits at the position the coordinates spell.  Through this reading a tree level's tensor is the same function
  of `(row, column)` whether it is laid out as [rows, 512], [trees, nodes, 512] or [trees, nodes/2, 1024]: the
  row-major position of (row r, column c) is r * 512 + c in each of them.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Tree

open Idealize.ShloMosaic Idealize.ShloMosaic.ValueIdx

/-- The element at row-major position `p`, zero past the end. -/
def flat {s : Shape} (x : s.Idx → EReal) (p : ℕ) : EReal :=
  if h : p < s.numel then x (s.rowMajor.symm ⟨p, h⟩) else 0

/-- An element is the reading at its own row-major position. -/
theorem flat_rowMajor {s : Shape} (x : s.Idx → EReal) (j : s.Idx) : flat x (s.rowMajor j).val = x j := by
  unfold flat
  rw [dif_pos (s.rowMajor j).isLt]
  exact congrArg x (s.rowMajor.symm_apply_apply j)

/-- A shape cast keeps every row-major position. -/
theorem flat_shapeCast {s t : Shape} (x : s.Idx → EReal) (h : s.ShapeCasts t) : flat (shapeCast t x h) = flat x := by
  funext p
  unfold flat
  have hn : t.numel = s.numel := h
  by_cases hp : p < t.numel
  · have hp' : p < s.numel := hn ▸ hp
    rw [dif_pos hp, dif_pos hp']
    unfold shapeCast
    refine congrArg x (Shape.reshapeEquiv_eq_of_rowMajor h ?_)
    simp
  · have hp' : ¬ p < s.numel := hn ▸ hp
    rw [dif_neg hp, dif_neg hp']

/-- A rank-2 element by its coordinates. -/
theorem flat_ix2 {A B : ℕ} (x : (⟨2, ![A, B]⟩ : Shape).Idx → EReal) (a : Fin A) (b : Fin B) :
    flat x (a.val * B + b.val) = x (ix2 a b) := by
  have h := flat_rowMajor x (ix2 a b)
  rw [Shape.rowMajor_val_two] at h
  exact h

/-- A rank-3 element by its coordinates. -/
theorem flat_ix3 {A B C : ℕ} (x : (⟨3, ![A, B, C]⟩ : Shape).Idx → EReal) (a : Fin A) (b : Fin B) (c : Fin C) :
    flat x ((a.val * B + b.val) * C + c.val) = x (ix3 a b c) := by
  have h := flat_rowMajor x (ix3 a b c)
  rw [Shape.rowMajor_val_three] at h
  exact h

/-- A rank-1 element by its coordinate. -/
theorem flat_ix1 {A : ℕ} (x : (⟨1, ![A]⟩ : Shape).Idx → EReal) (a : Fin A) : flat x a.val = x (ix1 a) := by
  have h := flat_rowMajor x (ix1 a)
  rw [Shape.rowMajor_val_one] at h
  exact h

end Cert.Tree

end
-- ==== Proof.Dots.lean ====
/-
  The two matrix products of a tree level, read at an index.

  The kernel multiplies a [R, K] activation block by a [K, N] weight (the transposed weight) into a zero
  accumulator; the reference contracts the last axis of a [A, B, K] activation with the last axis of the [N, K]
  weight.  At the extended reals both are the plain sum over the contracted coordinate of activation times
  weight: no accumulator, no order.
-/
import Idealize.ShloMosaic.PureOps.Ideal
import Idealize.ShloMosaic.PureOps.Ideal.Laws
import Idealize.ShloMosaic.Lib.ValueIdx

noncomputable section

open scoped BigOperators

namespace Cert.Tree

open Idealize.ShloMosaic Idealize.ShloMosaic.ValueIdx

/-- The dimension numbers of a plain product [R, K] · [K, N] → [R, N]. -/
structure Plain2 {R K N : ℕ} (D : DotDims ⟨2, ![R, K]⟩ ⟨2, ![K, N]⟩ ⟨2, ![R, N]⟩) : Prop where
  lb : D.lhsBatch = []
  ln : D.lhsNonContracting = [0]
  lc : D.lhsContracting = [1]
  rb : D.rhsBatch = []
  rn : D.rhsNonContracting = [1]
  rc : D.rhsContracting = [0]

/-- The dimension numbers of [A, B, K] · [N, K] → [A, B, N], contracting the last axes. -/
structure Last3 {A B K N : ℕ} (D : DotDims ⟨3, ![A, B, K]⟩ ⟨2, ![N, K]⟩ ⟨3, ![A, B, N]⟩) : Prop where
  lb : D.lhsBatch = []
  ln : D.lhsNonContracting = [0, 1]
  lc : D.lhsContracting = [2]
  rb : D.rhsBatch = []
  rn : D.rhsNonContracting = [0]
  rc : D.rhsContracting = [1]

section Coordinates
variable {sl sr so : Shape} (D : DotDims sl sr so)

/-- Two spellings of one axis of an index read the same coordinate. -/
private theorem val_congr {s : Shape} (j : s.Idx) (p q : ℕ) (hp : p < s.rank) (hq : q < s.rank) (h : p = q) :
    (j ⟨p, hp⟩).val = (j ⟨q, hq⟩).val := by subst h; rfl

/-- A free axis of the left operand reads the result index where the axis sits among the result's axes. -/
theorem lhsIdx_free_val (hb : D.lhsBatch = []) (a : Fin sl.rank) (ha : a ∈ D.lhsNonContracting) (p : ℕ) (hp : p < so.rank)
    (hpos : D.lhsNonContracting.idxOf a = p) (j : so.Idx) (q : D.contr.Idx) :
    (D.lhsIdx j q a).val = (j ⟨p, hp⟩).val := by
  unfold DotDims.lhsIdx
  rw [dif_neg (by rw [hb]; exact List.not_mem_nil), dif_pos ha]
  simp only [Fin.val_cast]
  exact val_congr j _ _ _ _ (by rw [hb, hpos]; simp)

/-- A free axis of the right operand reads the result index after the left operand's free axes. -/
theorem rhsIdx_free_val (hb : D.rhsBatch = []) (hlb : D.lhsBatch = []) (a : Fin sr.rank) (ha : a ∈ D.rhsNonContracting)
    (p : ℕ) (hp : p < so.rank) (hpos : D.lhsNonContracting.length + D.rhsNonContracting.idxOf a = p) (j : so.Idx)
    (q : D.contr.Idx) : (D.rhsIdx j q a).val = (j ⟨p, hp⟩).val := by
  unfold DotDims.rhsIdx
  rw [dif_neg (by rw [hb]; exact List.not_mem_nil), dif_pos ha]
  simp only [Fin.val_cast]
  exact val_congr j _ _ _ _ (by rw [hlb, ← hpos]; simp)

end Coordinates

/-- The kernel's product into a zero accumulator at (r, c): the sum over k of lhs (r, k) · rhs (k, c). -/
theorem matmul2_apply {R K N : ℕ} {φ₁ φ₂ : FTy} (D : DotDims ⟨2, ![R, K]⟩ ⟨2, ![K, N]⟩ ⟨2, ![R, N]⟩) (hD : Plain2 D)
    (lhs : FVec Ideal ⟨2, ![R, K]⟩ φ₁) (rhs : FVec Ideal ⟨2, ![K, N]⟩ φ₂) (r : Fin R) (c : Fin N) :
    matmul D none lhs rhs (constant ⟨2, ![R, N]⟩ .f32 0x00000000#32) (ix2 r c)
      = ∑ k : Fin K, lhs (ix2 r k) * rhs (ix2 k c) := by
  have hr : D.contr.rank = 1 := by rw [D.rank_contr, hD.lc]; rfl
  have hs : D.contr.size ⟨0, by omega⟩ = K := by
    rw [D.size_contr 0 (by rw [hD.lc]; exact Nat.one_pos)]
    simp [hD.lc]
  show FloatOps.matmul D none lhs rhs (constant ⟨2, ![R, N]⟩ .f32 0x00000000#32) (ix2 r c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ =>
      exact lhsIdx_free_val D hD.lb 0 (by rw [hD.ln]; simp) 0 (by show 0 < 2; decide) (by rw [hD.ln]; rfl) _ _
    | ⟨1, _⟩ => exact (D.lhsIdx_val_of_single hD.lc _ _).trans hk)
  have er : D.rhsIdx (ix2 r c) ((contrEquiv1 D K hr hs).symm k) = ix2 k c := funext fun a => Fin.ext (by
    match a with
    | ⟨0, _⟩ => exact (D.rhsIdx_val_of_single hD.rc _ _).trans hk
    | ⟨1, _⟩ =>
      exact rhsIdx_free_val D hD.rb hD.lb 1 (by rw [hD.rn]; simp) 1 (by show 1 < 2; decide) (by rw [hD.ln, hD.rn]; rfl) _ _)
  rw [el, er]

/-- The reference's contraction at (a, b, c): the sum over k of lhs (a, b, k) · rhs (c, k). -/
theorem dot3_apply {A B K N : ℕ} {φ₁ φ₂ : FTy} (D : DotDims ⟨3, ![A, B, K]⟩ ⟨2, ![N, K]⟩ ⟨3, ![A, B, N]⟩) (hD : Last3 D)
    (lhs : FVec Ideal ⟨3, ![A, B, K]⟩ φ₁) (rhs : FVec Ideal ⟨2, ![N, K]⟩ φ₂) (a : Fin A) (b : Fin B) (c : Fin N) :
    Host.dotGeneral D none lhs rhs (ix3 a b c) = ∑ k : Fin K, lhs (ix3 a b k) * rhs (ix2 c k) := by
  have hr : D.contr.rank = 1 := by rw [D.rank_contr, hD.lc]; rfl
  have hs : D.contr.size ⟨0, by omega⟩ = K := by
    rw [D.size_contr 0 (by rw [hD.lc]; exact Nat.one_pos)]
    simp [hD.lc]
  show FloatOps.dotGeneral D none .single lhs rhs (ix3 a b c) = _
  rw [Ideal.dotGeneral_apply, ← Equiv.sum_comp (contrEquiv1 D K hr hs).symm]
  refine Finset.sum_congr rfl fun k _ => ?_
  have hk := contrEquiv1_symm_val D K hr hs k
  have el : D.lhsIdx (ix3 a b c) ((contrEquiv1 D K hr hs).symm k) = ix3 a b k := funext fun x => Fin.ext (by
    match x with
    | ⟨0, _⟩ =>
      exact lhsIdx_free_val D hD.lb 0 (by rw [hD.ln]; simp) 0 (by show 0 < 3; decide) (by rw [hD.ln]; rfl) _ _
    | ⟨1, _⟩ =>
      exact lhsIdx_free_val D hD.lb 1 (by rw [hD.ln]; simp) 1 (by show 1 < 3; decide) (by rw [hD.ln]; rfl) _ _
    | ⟨2, _⟩ => exact (D.lhsIdx_val_of_single hD.lc _ _).trans hk)
  have er : D.rhsIdx (ix3 a b c) ((contrEquiv1 D K hr hs).symm k) = ix2 c k := funext fun x => Fin.ext (by
    match x with
    | ⟨0, _⟩ =>
      exact rhsIdx_free_val D hD.rb hD.lb 0 (by rw [hD.rn]; simp) 2 (by show 2 < 3; decide) (by rw [hD.ln, hD.rn]; rfl) _ _
    | ⟨1, _⟩ => exact (D.rhsIdx_val_of_single hD.rc _ _).trans hk)
  rw [el, er]

end Cert.Tree

end
-- ==== Proof.Tree.lean ====
/-
  The value both programs compute: a complete binary tree of 256 leaves per batch row, reduced level by level.

  Rows are numbered across the whole batch: at level k there are 256 · 256 / 2^k nodes, node r of level k + 1
  has the children 2r and 2r + 1 of level k.  A leaf's vector is the word embedding times the first weight; an
  inner node's is the concatenation of its two children's vectors (1024 numbers: child j / 512, component
  j % 512) times the second weight, plus the bias.  All arithmetic is on the extended reals, and the only laws used
  are reindexings of finite sums: no finiteness is needed anywhere.

  `Reads P k off R` says that a tensor `P`, read row-major as rows of 512, holds the level-k nodes
  off, …, off + R - 1.  `IsLevelOf OUT LHS` says that `OUT`, read as rows of 512, is `LHS`, read as rows of
  1024, times the second weight plus the bias.  One level of either program is an instance of `IsLevelOf`, and
  `reads_succ` carries `Reads` from a level to the next.
-/
import proofs.«152406_j25589415149692_2_alg».proof.Proof.Flat
import proofs.«152406_j25589415149692_2_alg».proof.Proof.Dots
import Idealize.ShloMosaic.Lib.KernelVsHost

noncomputable section

open scoped BigOperators

namespace Cert.Tree

open Idealize.ShloMosaic Idealize.ShloMosaic.ValueIdx

/-- Component `c` of node `r` of level `k`, from the leaf inputs `X` (row, component), the leaf weight `W1`
    (output component, input component), the pair weight `W2` and the bias `b2`. -/
def node (X W1 W2 : ℕ → ℕ → EReal) (b2 : ℕ → EReal) : ℕ → ℕ → ℕ → EReal
  | 0, r, c => ∑ d : Fin 300, X r d.val * W1 c d.val
  | k + 1, r, c => (∑ j : Fin 1024, node X W1 W2 b2 k (2 * r + j.val / 512) (j.val % 512) * W2 c j.val) + b2 c

section
variable (X W1 W2 : ℕ → ℕ → EReal) (b2 : ℕ → EReal)

/-- `P`, read as rows of 512, holds the level-`k` nodes `off`, …, `off + R - 1`. -/
def Reads {s : Shape} (P : s.Idx → EReal) (k off R : ℕ) : Prop :=
  ∀ r c, r < R → c < 512 → flat P (r * 512 + c) = node X W1 W2 b2 k (off + r) c

/-- `OUT`, read as `R` rows of 512, is `LHS`, read as rows of 1024, times the pair weight, plus the bias. -/
def IsLevelOf {s s' : Shape} (OUT : s.Idx → EReal) (LHS : s'.Idx → EReal) (R : ℕ) : Prop :=
  ∀ r c, r < R → c < 512 →
    flat OUT (r * 512 + c) = (∑ j : Fin 1024, flat LHS (r * 1024 + j.val) * W2 c j.val) + b2 c

variable {X W1 W2 b2}

/-- A level step: row r of 1024 is rows 2r and 2r + 1 of 512 side by side, which are node r's two children. -/
theorem reads_succ {s s' s'' : Shape} {OUT : s.Idx → EReal} {LHS : s'.Idx → EReal} {P : s''.Idx → EReal} {k off R R2 : ℕ}
    (hR : R2 = 2 * R) (hmm : IsLevelOf W2 b2 OUT LHS R) (hl : flat LHS = flat P) (hP : Reads X W1 W2 b2 P k (2 * off) R2) :
    Reads X W1 W2 b2 OUT (k + 1) off R := by
  intro r c hr hc
  rw [hmm r c hr hc, hl]
  show _ = (∑ j : Fin 1024, node X W1 W2 b2 k (2 * (off + r) + j.val / 512) (j.val % 512) * W2 c j.val) + b2 c
  refine congrArg (· + b2 c) (Finset.sum_congr rfl fun j _ => ?_)
  have hj := j.isLt
  have h := hP (2 * r + j.val / 512) (j.val % 512) (by omega) (Nat.mod_lt _ (by norm_num))
  rw [show r * 1024 + j.val = (2 * r + j.val / 512) * 512 + j.val % 512 by omega, h,
    show 2 * off + (2 * r + j.val / 512) = 2 * (off + r) + j.val / 512 by omega]

/-- Reading through another tensor with the same row-major contents. -/
theorem Reads.of_flat {s s' : Shape} {P : s.Idx → EReal} {Q : s'.Idx → EReal} {k off R : ℕ} (h : flat Q = flat P)
    (hP : Reads X W1 W2 b2 P k off R) : Reads X W1 W2 b2 Q k off R :=
  fun r c hr hc => by rw [h]; exact hP r c hr hc

end

/-! ## The kernel's level: a plain product into zero, plus the broadcast bias row -/

/-- A [1, 512] row broadcast down R rows reads the row's entry in every row. -/
theorem flat_broadcastRow {R : ℕ} (v : (⟨2, ![1, 512]⟩ : Shape).Idx → EReal)
    (h : (⟨2, ![1, 512]⟩ : Shape).Broadcasts ⟨2, ![R, 512]⟩) (r c : ℕ) (hr : r < R) (hc : c < 512) :
    flat (broadcastTo ⟨2, ![R, 512]⟩ v h) (r * 512 + c) = flat v c := by
  refine (flat_ix2 _ ⟨r, hr⟩ ⟨c, hc⟩).trans ?_
  have e : flat v c = v (ix2 (0 : Fin 1) (⟨c, hc⟩ : Fin 512)) := by
    have := flat_ix2 v (0 : Fin 1) (⟨c, hc⟩ : Fin 512)
    simpa using this
  rw [e]
  refine broadcastTo_apply v h _ _ fun a => ?_
  match a with
  | ⟨0, _⟩ => rfl
  | ⟨1, _⟩ => rfl

theorem isLevelOf_matmul {W2 : ℕ → ℕ → EReal} {b2 : ℕ → EReal} {R : ℕ} {φ₁ φ₂ : FTy}
    (D : DotDims ⟨2, ![R, 1024]⟩ ⟨2, ![1024, 512]⟩ ⟨2, ![R, 512]⟩) (hD : Plain2 D)
    (lhs : FVec Ideal ⟨2, ![R, 1024]⟩ φ₁) (w : FVec Ideal ⟨2, ![1024, 512]⟩ φ₂) (bias : FVec Ideal ⟨2, ![R, 512]⟩ .f32)
    (hw : ∀ k c, k < 1024 → c < 512 → flat w (k * 512 + c) = W2 c k)
    (hb : ∀ r c, r < R → c < 512 → flat bias (r * 512 + c) = b2 c) :
    IsLevelOf W2 b2 (addf (matmul D none lhs w (constant ⟨2, ![R, 512]⟩ .f32 0x00000000#32)) bias) lhs R := by
  intro r c hr hc
  refine (flat_ix2 _ ⟨r, hr⟩ ⟨c, hc⟩).trans ?_
  rw [addf_apply, matmul2_apply D hD]
  refine congrArg₂ (· + ·) (Finset.sum_congr rfl fun k _ => ?_) ?_
  · rw [← flat_ix2 lhs ⟨r, hr⟩ k, ← flat_ix2 w k ⟨c, hc⟩]
    exact congrArg _ (hw k.val c k.isLt hc)
  · rw [← flat_ix2 bias ⟨r, hr⟩ ⟨c, hc⟩]
    exact hb r c hr hc

/-! ## The reference's level: the contraction of the last axes, plus the bias broadcast over trees and nodes -/

/-- A [512] vector broadcast to [1, 1, 512] and then over A trees and B nodes reads its entry at every node. -/
theorem flat_broadcastVec {A B : ℕ} (v : (⟨1, ![512]⟩ : Shape).Idx → EReal)
    (h1 : (⟨1, ![512]⟩ : Shape).BroadcastsInDim ⟨3, ![1, 1, 512]⟩ ![2])
    (h2 : (⟨3, ![1, 1, 512]⟩ : Shape).BroadcastsInDim ⟨3, ![A, B, 512]⟩ ![0, 1, 2]) (a : Fin A) (b : Fin B) (c : Fin 512) :
    broadcastInDim ⟨3, ![A, B, 512]⟩ ![0, 1, 2] h2 (broadcastInDim ⟨3, ![1, 1, 512]⟩ ![2] h1 v) (ix3 a b c) = v (ix1 c) := by
  refine (broadcastInDim_apply _ h2 _ (ix3 a b c) (ix3 (0 : Fin 1) (0 : Fin 1) c) fun x => ?_).trans ?_
  · match x with
    | ⟨0, _⟩ => rfl
    | ⟨1, _⟩ => rfl
    | ⟨2, _⟩ => rfl
  · refine broadcastInDim_apply _ h1 v _ (ix1 c) fun x => ?_
    match x with
    | ⟨0, _⟩ => rfl

theorem isLevelOf_dot {W2 : ℕ → ℕ → EReal} {b2 : ℕ → EReal} {A B : ℕ} {φ₁ φ₂ : FTy}
    (D : DotDims ⟨3, ![A, B, 1024]⟩ ⟨2, ![512, 1024]⟩ ⟨3, ![A, B, 512]⟩) (hD : Last3 D)
    (lhs : FVec Ideal ⟨3, ![A, B, 1024]⟩ φ₁) (w : FVec Ideal ⟨2, ![512, 1024]⟩ φ₂) (bias : FVec Ideal ⟨3, ![A, B, 512]⟩ .f32)
    (hw : ∀ c k, c < 512 → k < 1024 → flat w (c * 1024 + k) = W2 c k)
    (hb : ∀ (a : Fin A) (b : Fin B) (c : Fin 512), bias (ix3 a b c) = b2 c.val) :
    IsLevelOf W2 b2 (addf (Host.dotGeneral D none lhs w) bias) lhs (A * B) := by
  intro r c hr hc
  have hB : 0 < B := by
    rcases Nat.eq_zero_or_pos B with h | h
    · subst h; simp at hr
    · exact h
  obtain ⟨a, b, ha, hb', rfl⟩ : ∃ a b, a < A ∧ b < B ∧ r = a * B + b :=
    ⟨r / B, r % B, Nat.div_lt_of_lt_mul (by rwa [Nat.mul_comm] at hr), Nat.mod_lt _ hB, (Nat.div_add_mod' r B).symm⟩
  refine (flat_ix3 _ ⟨a, ha⟩ ⟨b, hb'⟩ ⟨c, hc⟩).trans ?_
  rw [addf_apply, dot3_apply D hD]
  refine congrArg₂ (· + ·) (Finset.sum_congr rfl fun k _ => ?_) ?_
  · rw [← flat_ix3 lhs ⟨a, ha⟩ ⟨b, hb'⟩ k, ← flat_ix2 w ⟨c, hc⟩ k]
    exact congrArg _ (hw c k.val hc k.isLt)
  · exact hb ⟨a, ha⟩ ⟨b, hb'⟩ ⟨c, hc⟩

/-! ## The leaves -/

/-- The kernel's leaf product: the activation and the weight are zero-padded from 300 to 384 along the contracted
    axis, and the 84 padded terms are 0 · 0. -/
theorem reads_zero_matmul {X W1 W2 : ℕ → ℕ → EReal} {b2 : ℕ → EReal} {R off : ℕ} {φ₁ φ₂ : FTy}
    (D : DotDims ⟨2, ![R, 384]⟩ ⟨2, ![384, 512]⟩ ⟨2, ![R, 512]⟩) (hD : Plain2 D)
    (lhs : FVec Ideal ⟨2, ![R, 384]⟩ φ₁) (w : FVec Ideal ⟨2, ![384, 512]⟩ φ₂)
    (hl : ∀ r d, r < R → d < 384 → flat lhs (r * 384 + d) = if d < 300 then X (off + r) d else 0)
    (hw : ∀ d c, d < 384 → c < 512 → flat w (d * 512 + c) = if d < 300 then W1 c d else 0) :
    Reads X W1 W2 b2 (matmul D none lhs w (constant ⟨2, ![R, 512]⟩ .f32 0x00000000#32)) 0 off R := by
  intro r c hr hc
  refine (flat_ix2 _ ⟨r, hr⟩ ⟨c, hc⟩).trans ?_
  rw [matmul2_apply D hD]
  have e : ∀ k : Fin 384, lhs (ix2 ⟨r, hr⟩ k) * w (ix2 k ⟨c, hc⟩)
      = (if k.val < 300 then X (off + r) k.val else 0) * (if k.val < 300 then W1 c k.val else 0) := fun k => by
    rw [← flat_ix2 lhs ⟨r, hr⟩ k, ← flat_ix2 w k ⟨c, hc⟩]
    exact congrArg₂ (· * ·) (hl r k.val hr k.isLt) (hw k.val c k.isLt hc)
  rw [Finset.sum_congr rfl fun k _ => e k]
  show (∑ k : Fin (300 + 84), _) = ∑ d : Fin 300, X (off + r) d.val * W1 c d.val
  rw [Fin.sum_univ_add]
  have h2 : ∀ i : Fin 84, ¬ ((Fin.natAdd 300 i : Fin (300 + 84)).val < 300) := fun i => by simp
  simp only [h2, Fin.coe_castAdd, Fin.is_lt, if_true, if_false, mul_zero, Finset.sum_const_zero, add_zero]

/-- The reference's leaf contraction. -/
theorem reads_zero_dot {X W1 W2 : ℕ → ℕ → EReal} {b2 : ℕ → EReal} {A B : ℕ} {φ₁ φ₂ : FTy}
    (D : DotDims ⟨3, ![A, B, 300]⟩ ⟨2, ![512, 300]⟩ ⟨3, ![A, B, 512]⟩) (hD : Last3 D)
    (lhs : FVec Ideal ⟨3, ![A, B, 300]⟩ φ₁) (w : FVec Ideal ⟨2, ![512, 300]⟩ φ₂)
    (hl : ∀ r d, r < A * B → d < 300 → flat lhs (r * 300 + d) = X r d)
    (hw : ∀ c d, c < 512 → d < 300 → flat w (c * 300 + d) = W1 c d) :
    Reads X W1 W2 b2 (Host.dotGeneral D none lhs w) 0 0 (A * B) := by
  intro r c hr hc
  have hB : 0 < B := by
    rcases Nat.eq_zero_or_pos B with h | h
    · subst h; simp at hr
    · exact h
  obtain ⟨a, b, ha, hb', rfl⟩ : ∃ a b, a < A ∧ b < B ∧ r = a * B + b :=
    ⟨r / B, r % B, Nat.div_lt_of_lt_mul (by rwa [Nat.mul_comm] at hr), Nat.mod_lt _ hB, (Nat.div_add_mod' r B).symm⟩
  refine (flat_ix3 _ ⟨a, ha⟩ ⟨b, hb'⟩ ⟨c, hc⟩).trans ?_
  rw [dot3_apply D hD]
  show _ = ∑ d : Fin 300, X (0 + (a * B + b)) d.val * W1 c d.val
  refine Finset.sum_congr rfl fun k _ => ?_
  rw [← flat_ix3 lhs ⟨a, ha⟩ ⟨b, hb'⟩ k, ← flat_ix2 w ⟨c, hc⟩ k, Nat.zero_add]
  exact congrArg₂ (· * ·) (hl _ k.val hr k.isLt) (hw c k.val hc k.isLt)

/-! ## The result: the roots -/

/-- The [256, 512] result both programs end with, as one function of the gathered embeddings [256, 256, 300], the two
    weights [512, 300] and [512, 1024] and the bias [512]: row `B` is the root (level 8) of tree `B`. -/
def result (x : (⟨3, ![256, 256, 300]⟩ : Shape).Idx → EReal) (w1 : (⟨2, ![512, 300]⟩ : Shape).Idx → EReal)
    (w2 : (⟨2, ![512, 1024]⟩ : Shape).Idx → EReal) (b : (⟨1, ![512]⟩ : Shape).Idx → EReal) :
    (⟨2, ![256, 512]⟩ : Shape).Idx → EReal :=
  fun j => node (fun r d => flat x (r * 300 + d)) (fun k d => flat w1 (k * 300 + d)) (fun k i => flat w2 (k * 1024 + i))
    (fun k => flat b k) 8 (j 0).val (j 1).val

/-- A [256, 512] array that holds the 256 roots is the result. -/
theorem eq_result_of_reads {x : (⟨3, ![256, 256, 300]⟩ : Shape).Idx → EReal} {w1 : (⟨2, ![512, 300]⟩ : Shape).Idx → EReal}
    {w2 : (⟨2, ![512, 1024]⟩ : Shape).Idx → EReal} {b : (⟨1, ![512]⟩ : Shape).Idx → EReal}
    (P : (⟨2, ![256, 512]⟩ : Shape).Idx → EReal)
    (h : Reads (fun r d => flat x (r * 300 + d)) (fun k d => flat w1 (k * 300 + d)) (fun k i => flat w2 (k * 1024 + i))
      (fun k => flat b k) P 8 0 256) : P = result x w1 w2 b := by
  funext j
  obtain ⟨p, q, rfl⟩ : ∃ (p : Fin 256) (q : Fin 512), j = ix2 p q := ⟨j 0, j 1, eq_ix2 j⟩
  rw [← flat_ix2 P p q, h p.val q.val p.isLt q.isLt, Nat.zero_add]
  rfl

end Cert.Tree

end
-- ==== Proof.KernelValue.lean ====
/-
  What the kernel's body leaves in its output block at one grid point.

  The body holds sixteen trees at once.  It multiplies their 4096 leaf rows (zero-padded from 300 to 384 entries) by
  the zero-padded first weight, and then eight times views the rows pairwise as rows of 1024, multiplies by the second
  weight and adds the bias row; between the levels it only narrows the format (the identity on the extended reals)
  and re-views the same row-major data under other shapes.  So if the block's rows are the leaf inputs of the global
  rows 256 · off, …, the sixteen rows it stores are the roots off, …, off + 15: eight applications of the level step
  over the leaf product.
-/
import proofs.«152406_j25589415149692_2_alg».proof.Proof.Tree
import proofs.«152406_j25589415149692_2_alg».proof.Proof.Gen.KernelIdeal.Frame

noncomputable section

open scoped BigOperators

namespace Cert.KernelIdeal.TreeValue

open Cert.KernelIdeal Cert.KernelIdeal.Gen Idealize.ShloMosaic Idealize.ShloMosaic.ValueIdx Cert.Tree

/-! The nine products are plain [R, K] · [K, 512] products. -/

theorem plain0 : Plain2 dot_S4096x384_S384x512_S4096x512_1_0_0_1_n_n := ⟨rfl, rfl, rfl, rfl, rfl, rfl⟩
theorem plain1 : Plain2 dot_S2048x1024_S1024x512_S2048x512_1_0_0_1_n_n := ⟨rfl, rfl, rfl, rfl, rfl, rfl⟩
theorem plain2 : Plain2 dot_S1024x1024_S1024x512_S1024x512_1_0_0_1_n_n := ⟨rfl, rfl, rfl, rfl, rfl, rfl⟩
theorem plain3 : Plain2 dot_S512x1024_S1024x512_S512x512_1_0_0_1_n_n := ⟨rfl, rfl, rfl, rfl, rfl, rfl⟩
theorem plain4 : Plain2 dot_S256x1024_S1024x512_S256x512_1_0_0_1_n_n := ⟨rfl, rfl, rfl, rfl, rfl, rfl⟩
theorem plain5 : Plain2 dot_S128x1024_S1024x512_S128x512_1_0_0_1_n_n := ⟨rfl, rfl, rfl, rfl, rfl, rfl⟩
theorem plain6 : Plain2 dot_S64x1024_S1024x512_S64x512_1_0_0_1_n_n := ⟨rfl, rfl, rfl, rfl, rfl, rfl⟩
theorem plain7 : Plain2 dot_S32x1024_S1024x512_S32x512_1_0_0_1_n_n := ⟨rfl, rfl, rfl, rfl, rfl, rfl⟩
theorem plain8 : Plain2 dot_S16x1024_S1024x512_S16x512_1_0_0_1_n_n := ⟨rfl, rfl, rfl, rfl, rfl, rfl⟩

/-- Between two levels the rows are narrowed to bf16 and viewed as [16, n, 512], [16, n/2, 1024], [8n, 1024]: the
    same numbers at the same row-major positions. -/
theorem flat_relay {s s1 s2 s3 : Shape} {φ ψ : FTy} (P : FVec Ideal s φ) (hψ : ψ.bits < φ.bits) (h1 : s.ShapeCasts s1)
    (h2 : s1.ShapeCasts s2) (h3 : s2.ShapeCasts s3) :
    flat (shapeCast s3 (shapeCast s2 (shapeCast s1 (truncf ψ P hψ) h1) h2) h3) = flat P := by
  rw [flat_shapeCast, flat_shapeCast, flat_shapeCast]
  rfl

/-- Two views in a row keep the reading. -/
theorem flat_cast2 {s s1 s2 : Shape} (P : s.Idx → EReal) (h1 : s.ShapeCasts s1) (h2 : s1.ShapeCasts s2) :
    flat (shapeCast s2 (shapeCast s1 P h1) h2) = flat P := by
  rw [flat_shapeCast, flat_shapeCast]

set_option maxRecDepth 4096 in
/-- The output block holds the sixteen roots `off`, …, `off + 15` when the activation block holds the (padded) leaf
    inputs of rows `256 · off`, …, the weights are the (padded, transposed) weights and the bias row is the bias. -/
theorem out_reads {X W1 W2 : ℕ → ℕ → EReal} {b2 : ℕ → EReal} (off : ℕ)
    (x0 : Vec Ideal S16x256x384 .bf16) (x1 : Vec Ideal S384x512 .bf16) (x2 : Vec Ideal S1024x512 .bf16)
    (x3 : Vec Ideal S1x512 .f32)
    (h0 : ∀ r d, r < 4096 → d < 384 → flat x0 (r * 384 + d) = if d < 300 then X (256 * off + r) d else 0)
    (h1 : ∀ d c, d < 384 → c < 512 → flat x1 (d * 512 + c) = if d < 300 then W1 c d else 0)
    (h2 : ∀ k c, k < 1024 → c < 512 → flat x2 (k * 512 + c) = W2 c k)
    (h3 : ∀ c, c < 512 → flat x3 c = b2 c) :
    Reads X W1 W2 b2 (out0_4 x0 x1 x2 x3) 8 off 16 := by
  have hz2 : (![0, 0] : Fin 2 → ℕ) = fun _ => 0 := by
    funext a; match a with | ⟨0, _⟩ => rfl | ⟨1, _⟩ => rfl
  have hz3 : (![0, 0, 0] : Fin 3 → ℕ) = fun _ => 0 := by
    funext a; match a with | ⟨0, _⟩ => rfl | ⟨1, _⟩ => rfl | ⟨2, _⟩ => rfl
  unfold out0_4
  rw [View.canon_unit_zero hz2]
  simp only [View.ld_unit_zero (S := S16x256x384) hz3, View.ld_unit_zero (S := S384x512) hz2,
    View.ld_unit_zero (S := S1024x512) hz2, View.ld_unit_zero (S := S1x512) hz2]
  unfold k0_pay1 k0_pay4 k0_pay5 k0_pay2 k0_pay3
  dsimp only
  -- the second weight and the bias row as every level reads them
  have hw : ∀ k c, k < 1024 → c < 512 →
      flat (shapeCast S1024x512 x2 shapeCasts_S1024x512_S1024x512) (k * 512 + c) = W2 c k :=
    fun k c hk hc => by rw [flat_shapeCast]; exact h2 k c hk hc
  have hb : ∀ (R : ℕ) (h : S1x512.Broadcasts ⟨2, ![R, 512]⟩) (r c : ℕ), r < R → c < 512 →
      flat (broadcastTo ⟨2, ![R, 512]⟩ (shapeCast S1x512 x3 shapeCasts_S1x512_S1x512) h) (r * 512 + c) = b2 c :=
    fun R h r c hr hc => (flat_broadcastRow _ h r c hr hc).trans (by rw [flat_shapeCast]; exact h3 c hc)
  -- the stored value is the last level's rows under two more views; then down the eight levels
  refine Reads.of_flat (flat_cast2 _ _ _) ?_
  refine reads_succ (R2 := 32) rfl (isLevelOf_matmul _ plain8 _ _ _ hw (hb 16 _)) (flat_relay _ _ _ _ _) ?_
  refine reads_succ (R2 := 64) rfl (isLevelOf_matmul _ plain7 _ _ _ hw (hb 32 _)) (flat_relay _ _ _ _ _) ?_
  refine reads_succ (R2 := 128) rfl (isLevelOf_matmul _ plain6 _ _ _ hw (hb 64 _)) (flat_relay _ _ _ _ _) ?_
  refine reads_succ (R2 := 256) rfl (isLevelOf_matmul _ plain5 _ _ _ hw (hb 128 _)) (flat_relay _ _ _ _ _) ?_
  refine reads_succ (R2 := 512) rfl (isLevelOf_matmul _ plain4 _ _ _ hw (hb 256 _)) (flat_relay _ _ _ _ _) ?_
  refine reads_succ (R2 := 1024) rfl (isLevelOf_matmul _ plain3 _ _ _ hw (hb 512 _)) (flat_relay _ _ _ _ _) ?_
  refine reads_succ (R2 := 2048) rfl (isLevelOf_matmul _ plain2 _ _ _ hw (hb 1024 _)) (flat_relay _ _ _ _ _) ?_
  refine reads_succ (R2 := 4096) rfl (isLevelOf_matmul _ plain1 _ _ _ hw (hb 2048 _)) (flat_relay _ _ _ _ _) ?_
  -- the leaf product
  have ho : 2 * (2 * (2 * (2 * (2 * (2 * (2 * (2 * off))))))) = 256 * off := by omega
  rw [ho]
  exact reads_zero_matmul _ plain0 _ _
    (fun r d hr hd => by rw [flat_shapeCast, flat_shapeCast]; exact h0 r d hr hd)
    (fun d c hd hc => by rw [flat_shapeCast]; exact h1 d c hd hc)

end Cert.KernelIdeal.TreeValue

end
-- ==== Proof.KernelHost.lean ====
/-
  The four arrays the kernel's windows read, as functions of the program's arguments.

  Before the launch the host gathers the embedding rows of the word ids (an out-of-range id gives a row of NaN; the
  same operations as in the reference), narrows them to bf16 and pads each row from 300 to 384 entries with zeros;
  transposes the first weight, narrows it and pads it from 300 to 384 rows with zeros; transposes and narrows the
  second weight; and views the bias as one row.  Narrowing is the identity on the extended reals and the padding
  value, the integer 0 converted, is the real 0.  Read row-major:
    activation (r, d)  = gathered (r, d) for d < 300, else 0;
    first weight (d, c) = W1 (c, d) for d < 300, else 0;
    second weight (k, c) = W2 (c, k);   bias row (c) = b2 (c).
-/
import proofs.«152406_j25589415149692_2_alg».proof.Proof.Tree
import proofs.«152406_j25589415149692_2_alg».proof.Proof.Gen.KernelIdeal.Frame
import Idealize.ShloMosaic.Lib.StableHlo.Run
import Idealize.ShloMosaic.Lib.KernelVsHost

noncomputable section

open scoped BigOperators

namespace Cert.KernelIdeal.TreeHost

open Cert.KernelIdeal Cert.KernelIdeal.Gen Idealize.ShloMosaic Idealize.ShloMosaic.TcCoe Idealize.ShloMosaic.ValueIdx
open Cert.Tree Idealize.SL.Sem Idealize.ShloMosaic.StableHlo

/-! ## Layout operations read by coordinates -/

/-- A transposed matrix at (p, q) is the matrix at (q, p). -/
theorem transpose2_apply {A B : ℕ} (x : (⟨2, ![A, B]⟩ : Shape).Idx → EReal)
    (h : (⟨2, ![A, B]⟩ : Shape).Transposes [1, 0] ⟨2, ![B, A]⟩) (p : Fin B) (q : Fin A) :
    transpose ⟨2, ![B, A]⟩ [1, 0] x h (ix2 p q) = x (ix2 q p) := by
  refine transpose_apply [1, 0] x h (ix2 p q) (ix2 q p) fun b => ?_
  match b with
  | ⟨0, _⟩ => rfl
  | ⟨1, _⟩ => rfl

/-- The integer zero converted to a float is the real zero. -/
theorem padValue_eq {φ : FTy} (j : S_.Idx) : (sitofp (F := Ideal) φ (constantI S_ 32 0#32)) j = 0 := by
  show ((((0#32 : BitVec 32).toInt : ℝ) : EReal)) = 0
  simp

/-- Rows padded at the end from 300 to 384 entries: entry d of a row is the row's entry for d < 300 and the padding
    value after. -/
theorem padRows_apply {A B : ℕ} (x : (⟨3, ![A, B, 300]⟩ : Shape).Idx → EReal) (v : S_.Idx → EReal)
    (h : (⟨3, ![A, B, 300]⟩ : Shape).Pads ![0, 0, 0] ![0, 0, 84] ![0, 0, 0] ⟨3, ![A, B, 384]⟩) (hu : 0 < S_.numel)
    (a : Fin A) (b : Fin B) (d : Fin 384) :
    pad ⟨3, ![A, B, 384]⟩ ![0, 0, 0] ![0, 0, 84] ![0, 0, 0] x v h hu (ix3 a b d)
      = if hd : d.val < 300 then x (ix3 a b ⟨d.val, hd⟩) else v (Shape.Idx.first hu) := by
  by_cases hd : d.val < 300
  · rw [dif_pos hd]
    refine pad_apply_of_inside _ _ _ x v h hu (ix3 a b d) (ix3 a b ⟨d.val, hd⟩) fun i => ?_
    match i with
    | ⟨0, _⟩ => show a.val = 0 + a.val * (0 + 1); omega
    | ⟨1, _⟩ => show b.val = 0 + b.val * (0 + 1); omega
    | ⟨2, _⟩ => show d.val = 0 + d.val * (0 + 1); omega
  · rw [dif_neg hd]
    refine pad_apply_of_not_inside _ _ _ x v h hu (ix3 a b d) (2 : Fin 3) ?_
    rintro ⟨-, -, h3⟩
    have h3' : (d.val - 0) / (0 + 1) < 300 := h3
    simp at h3'
    exact hd h3'

/-- A matrix padded at the end from 300 to 384 rows. -/
theorem padCols_apply {B : ℕ} (x : (⟨2, ![300, B]⟩ : Shape).Idx → EReal) (v : S_.Idx → EReal)
    (h : (⟨2, ![300, B]⟩ : Shape).Pads ![0, 0] ![84, 0] ![0, 0] ⟨2, ![384, B]⟩) (hu : 0 < S_.numel)
    (d : Fin 384) (b : Fin B) :
    pad ⟨2, ![384, B]⟩ ![0, 0] ![84, 0] ![0, 0] x v h hu (ix2 d b)
      = if hd : d.val < 300 then x (ix2 ⟨d.val, hd⟩ b) else v (Shape.Idx.first hu) := by
  by_cases hd : d.val < 300
  · rw [dif_pos hd]
    refine pad_apply_of_inside _ _ _ x v h hu (ix2 d b) (ix2 ⟨d.val, hd⟩ b) fun i => ?_
    match i with
    | ⟨0, _⟩ => show d.val = 0 + d.val * (0 + 1); omega
    | ⟨1, _⟩ => show b.val = 0 + b.val * (0 + 1); omega
  · rw [dif_neg hd]
    refine pad_apply_of_not_inside _ _ _ x v h hu (ix2 d b) (0 : Fin 2) ?_
    rintro ⟨-, -, h3⟩
    have h3' : (d.val - 0) / (0 + 1) < 300 := h3
    simp at h3'
    exact hd h3'

/-! ## The gathered embeddings -/

/-- The word ids as start indices: a negative id counts from the end (id + 50000), and the array gains a trailing
    axis of length one. -/
def startIdx (ids : IVec S256x256 32) : IVec S256x256x1 32 :=
  broadcastInDim S256x256x1 ![0, 1] bcast_S256x256_S256x256x1_0_1
    (select (cmpi .slt ids (broadcastInDim S256x256 ![] bcast_S_S256x256 (constantI S_ 32 0#32)))
      (addi ids (broadcastInDim S256x256 ![] bcast_S_S256x256 (constantI S_ 32 50000#32))) ids)

/-- The embedding row of every word id, and a row of NaN where the id is outside [0, 49999]. -/
def taken (ids : IVec S256x256 32) (emb : FVec Ideal S50000x300 .f32) : FVec Ideal S256x256x300 .f32 :=
  select
    (broadcastInDim S256x256x300 ![0, 1] bcast_S256x256_S256x256x300_0_1
      (Host.reduce IntOp.andi
        (andi (cmpi .sge (startIdx ids) (broadcastInDim S256x256x1 ![] bcast_S_S256x256x1 (constantI S_ 32 0#32)))
          (cmpi .sle (startIdx ids)
            (broadcastInDim S256x256x1 ![0, 1, 2] bcast_S1x1x1_S256x256x1_0_1_2
              (broadcastInDim S1x1x1 ![2] bcast_S1_S1x1x1_2 (constantI S1 32 49999#32)))))
        (constantI S_ 1 1#1) reducesTo_S256x256x1_S256x256_d2 h_S_))
    (Host.gather gather_S50000x300_S256x256x1_S256x256x300_2_0_n_n_0_2_1300 emb (startIdx ids))
    (broadcastInDim S256x256x300 ![] bcast_S_S256x256x300 (constant (F := Ideal) S_ .f32 0x7FC00000#32))

/-! ## The windows' arrays as the launch finds them -/

variable (m : (ℓ : Loc nD τ sig) → Buf (Elt Ideal) ℓ) (c : Dev nD)

/-- The program's five arguments on device `c`. -/
abbrev ids : IVec S256x256 32 := m ((c : Thread nD τ).loc main_arg0)
abbrev emb : FVec Ideal S50000x300 .f32 := m ((c : Thread nD τ).loc main_arg1)
abbrev w1 : FVec Ideal S512x300 .f32 := m ((c : Thread nD τ).loc main_arg2)
abbrev w2 : FVec Ideal S512x1024 .f32 := m ((c : Thread nD τ).loc main_arg3)
abbrev bias : FVec Ideal S512 .f32 := m ((c : Thread nD τ).loc main_arg4)

attribute [local irreducible] Host.reduce Host.gather pad in
theorem act_eq : @Eq (S256x256x384.Idx → EReal) (V m c main_v2)
    (pad S256x256x384 ![0, 0, 0] ![0, 0, 84] ![0, 0, 0] (truncf (F := Ideal) .bf16 (taken (ids m c) (emb m c)) bitsLt_bf16_f32)
      (sitofp (F := Ideal) .bf16 (constantI S_ 32 0#32)) pads_S256x256x300_S256x256x384_000_000_0840 h_S_) := by
  dsimp only [V]
  simp only [hostOps0, hostOps0_1, hostOps0_2, hostOps0_3, hostOps0_4, hostOps0_5, List.flatten_cons, List.flatten_nil,
    List.append_nil, List.cons_append, List.nil_append]
  after_results_simp
  try rfl

attribute [local irreducible] pad in
theorem w1_eq : @Eq (S384x512.Idx → EReal) (V m c main_v5)
    (pad S384x512 ![0, 0] ![84, 0] ![0, 0]
      (truncf (F := Ideal) .bf16 (transpose S300x512 [1, 0] (w1 m c) transposes_S512x300_S300x512_1_0) bitsLt_bf16_f32)
      (sitofp (F := Ideal) .bf16 (constantI S_ 32 0#32)) pads_S300x512_S384x512_0840_000 h_S_) := by
  dsimp only [V]
  simp only [hostOps0, hostOps0_1, hostOps0_2, hostOps0_3, hostOps0_4, hostOps0_5, List.flatten_cons, List.flatten_nil,
    List.append_nil, List.cons_append, List.nil_append]
  after_results
  try rfl

theorem w2_eq : @Eq (S1024x512.Idx → EReal) (V m c main_v7)
    (truncf (F := Ideal) .bf16 (transpose S1024x512 [1, 0] (w2 m c) transposes_S512x1024_S1024x512_1_0) bitsLt_bf16_f32) := by
  dsimp only [V]
  simp only [hostOps0, hostOps0_1, hostOps0_2, hostOps0_3, hostOps0_4, hostOps0_5, List.flatten_cons, List.flatten_nil,
    List.append_nil, List.cons_append, List.nil_append]
  after_results
  try rfl

theorem bias_eq : @Eq (S1x512.Idx → EReal) (V m c main_v8) (shapeCast S1x512 (bias m c) shapeCasts_S512_S1x512) := by
  dsimp only [V]
  simp only [hostOps0, hostOps0_1, hostOps0_2, hostOps0_3, hostOps0_4, hostOps0_5, List.flatten_cons, List.flatten_nil,
    List.append_nil, List.cons_append, List.nil_append]
  after_results
  try rfl

/-! ## The same arrays read row-major -/

/-- The activation array: the gathered row's entry, or zero in the padding. -/
theorem act_flat (r d : ℕ) (hr : r < 65536) (hd : d < 384) :
    flat (s := S256x256x384) (V m c main_v2) (r * 384 + d)
      = if d < 300 then flat (taken (ids m c) (emb m c)) (r * 300 + d) else 0 := by
  rw [act_eq]
  obtain ⟨a, b, ha, hb, rfl⟩ : ∃ a b, a < 256 ∧ b < 256 ∧ r = a * 256 + b :=
    ⟨r / 256, r % 256, by omega, by omega, by omega⟩
  refine (flat_ix3 _ ⟨a, ha⟩ ⟨b, hb⟩ ⟨d, hd⟩).trans ?_
  refine (padRows_apply (A := 256) (B := 256) _ _ pads_S256x256x300_S256x256x384_000_000_0840 h_S_ ⟨a, ha⟩ ⟨b, hb⟩ ⟨d, hd⟩).trans ?_
  by_cases h : d < 300
  · rw [dif_pos h, if_pos h, truncf_apply]
    exact (flat_ix3 (A := 256) (B := 256) (C := 300) (taken (ids m c) (emb m c)) ⟨a, ha⟩ ⟨b, hb⟩ ⟨d, h⟩).symm
  · rw [dif_neg h, if_neg h]
    exact padValue_eq _

/-- The first weight's array: transposed, and zero in the padding. -/
theorem w1_flat (d k : ℕ) (hd : d < 384) (hk : k < 512) :
    flat (s := S384x512) (V m c main_v5) (d * 512 + k) = if d < 300 then flat (w1 m c) (k * 300 + d) else 0 := by
  rw [w1_eq]
  refine (flat_ix2 _ ⟨d, hd⟩ ⟨k, hk⟩).trans ?_
  refine (padCols_apply (B := 512) _ _ pads_S300x512_S384x512_0840_000 h_S_ ⟨d, hd⟩ ⟨k, hk⟩).trans ?_
  by_cases h : d < 300
  · rw [dif_pos h, if_pos h, truncf_apply]
    refine (transpose2_apply (A := 512) (B := 300) (w1 m c) transposes_S512x300_S300x512_1_0 ⟨d, h⟩ ⟨k, hk⟩).trans ?_
    exact (flat_ix2 (A := 512) (B := 300) (w1 m c) ⟨k, hk⟩ ⟨d, h⟩).symm
  · rw [dif_neg h, if_neg h]
    exact padValue_eq _

/-- The second weight's array: transposed. -/
theorem w2_flat (j k : ℕ) (hj : j < 1024) (hk : k < 512) :
    flat (s := S1024x512) (V m c main_v7) (j * 512 + k) = flat (w2 m c) (k * 1024 + j) := by
  rw [w2_eq]
  refine (flat_ix2 _ ⟨j, hj⟩ ⟨k, hk⟩).trans ?_
  rw [truncf_apply]
  refine (transpose2_apply (A := 512) (B := 1024) (w2 m c) transposes_S512x1024_S1024x512_1_0 ⟨j, hj⟩ ⟨k, hk⟩).trans ?_
  exact (flat_ix2 (A := 512) (B := 1024) (w2 m c) ⟨k, hk⟩ ⟨j, hj⟩).symm

/-- The bias row. -/
theorem bias_flat (k : ℕ) : flat (s := S1x512) (V m c main_v8) k = flat (bias m c) k := by
  rw [bias_eq, flat_shapeCast]

end Cert.KernelIdeal.TreeHost

end
-- ==== Proof.KernelBlocks.lean ====
/-
  From the blocks to the array: the kernel's run ends with the 256 roots.

  Grid point t stages block t of the activation array — the sixteen trees 16t, …, 16t + 15, that is the leaf rows
  4096·t, … — and the whole of the two weights and of the bias row, and writes back rows 16t, …, 16t + 15 of the result.
  By the body's value these rows are the roots 16t, …, 16t + 15; the sixteen blocks tile the 256 rows, so the array
  ends as the result function of the arguments.
-/
import proofs.«152406_j25589415149692_2_alg».proof.Proof.KernelValue
import proofs.«152406_j25589415149692_2_alg».proof.Proof.KernelHost
import proofs.«152406_j25589415149692_2_alg».proof.Proof.Gen.KernelIdeal.Value

noncomputable section

open scoped BigOperators

namespace Cert.KernelIdeal.TreeBlocks

open Cert.KernelIdeal Cert.KernelIdeal.Gen Idealize.ShloMosaic Idealize.ShloMosaic.TcCoe Idealize.ShloMosaic.ValueIdx
open Cert.Tree Idealize.SL.Sem Cert.KernelIdeal.TreeHost Cert.KernelIdeal.TreeValue
open Idealize.ShloMosaic.Pipeline (Dat)

variable (m : (ℓ : Loc nD τ sig) → Buf (Elt Ideal) ℓ) (ρ : Dev nD → PrngReg)

theorem N_eq : cfg0.N = 16 := N_0

/-- The index maps over the sixteen grid points: the activation and the result move one block per point along their
    first axis, the weights and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What a point's input blocks hold -/

/-- Block t of the activation array is its leaf rows 4096·t, …, 4096·t + 4095. -/
theorem blk0_read (P : Vec Ideal S256x256x384 .bf16) (t : Fin cfg0.N) (r d : ℕ) (hr : r < 4096) (hd : d < 384) :
    flat (s := S16x256x384) (((cfg0.win 0).blk t).view.read (Elt Ideal) P) (r * 384 + d)
      = flat (s := S256x256x384) P ((4096 * t.val + r) * 384 + d) := by
  obtain ⟨e0, e1, e2, -⟩ := idx_facts t
  have ht : t.val < 16 := lt_of_lt_of_eq t.isLt N_eq
  obtain ⟨b, l, hb, hl, rfl⟩ : ∃ b l, b < 16 ∧ l < 256 ∧ r = b * 256 + l :=
    ⟨r / 256, r % 256, by omega, by omega, by omega⟩
  refine (flat_ix3 _ ⟨b, hb⟩ ⟨l, hl⟩ ⟨d, hd⟩).trans ?_
  have key : ((cfg0.win 0).blk t).view.read (Elt Ideal) P (ix3 (⟨b, hb⟩ : Fin 16) (⟨l, hl⟩ : Fin 256) (⟨d, hd⟩ : Fin 384))
      = P (ix3 (⟨16 * t.val + b, by omega⟩ : Fin 256) (⟨l, hl⟩ : Fin 256) (⟨d, hd⟩ : Fin 384)) := by
    show P (((cfg0.win 0).blk t).view.emb (ix3 (⟨b, hb⟩ : Fin 16) (⟨l, hl⟩ : Fin 256) (⟨d, hd⟩ : Fin 384))) = _
    refine congrArg P (funext fun a => Fin.ext ?_)
    match a with
    | ⟨0, _⟩ => show win0_0.index t (0 : Fin 3) * 16 + 1 * b = 16 * t.val + b; omega
    | ⟨1, _⟩ => show win0_0.index t (1 : Fin 3) * 256 + 1 * l = l; omega
    | ⟨2, _⟩ => show win0_0.index t (2 : Fin 3) * 384 + 1 * d = d; omega
  rw [key]
  refine (flat_ix3 (A := 256) (B := 256) (C := 384) P ⟨16 * t.val + b, by omega⟩ ⟨l, hl⟩ ⟨d, hd⟩).symm.trans
    (congrArg (flat (s := S256x256x384) P) ?_)
  show ((16 * t.val + b) * 256 + l) * 384 + d = (4096 * t.val + (b * 256 + l)) * 384 + d
  omega

/-- The first weight is staged whole at every point. -/
theorem blk1_read (P : Vec Ideal S384x512 .bf16) (t : Fin cfg0.N) :
    @Eq (S384x512.Idx → EReal) (((cfg0.win 1).blk t).view.read (Elt Ideal) P) P := by
  obtain ⟨-, -, -, e0, e1, -⟩ := idx_facts t
  funext y
  show P (((cfg0.win 1).blk t).view.emb y) = P y
  refine congrArg P (funext fun a => Fin.ext ?_)
  match a with
  | ⟨0, _⟩ => show win0_1.index t (0 : Fin 2) * 384 + 1 * (y 0).val = (y 0).val; omega
  | ⟨1, _⟩ => show win0_1.index t (1 : Fin 2) * 512 + 1 * (y 1).val = (y 1).val; omega

/-- The second weight is staged whole at every point. -/
theorem blk2_read (P : Vec Ideal S1024x512 .bf16) (t : Fin cfg0.N) :
    @Eq (S1024x512.Idx → EReal) (((cfg0.win 2).blk t).view.read (Elt Ideal) P) P := by
  obtain ⟨-, -, -, -, -, e0, e1, -⟩ := idx_facts t
  funext y
  show P (((cfg0.win 2).blk t).view.emb y) = P y
  refine congrArg P (funext fun a => Fin.ext ?_)
  match a with
  | ⟨0, _⟩ => show win0_2.index t (0 : Fin 2) * 1024 + 1 * (y 0).val = (y 0).val; omega
  | ⟨1, _⟩ => show win0_2.index t (1 : Fin 2) * 512 + 1 * (y 1).val = (y 1).val; omega

/-- The bias row is staged whole at every point. -/
theorem blk3_read (P : Vec Ideal S1x512 .f32) (t : Fin cfg0.N) :
    @Eq (S1x512.Idx → EReal) (((cfg0.win 3).blk t).view.read (Elt Ideal) P) P := by
  obtain ⟨-, -, -, -, -, -, -, e0, e1, -⟩ := idx_facts t
  funext y
  show P (((cfg0.win 3).blk t).view.emb y) = P y
  refine congrArg P (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

/-! ## What a point writes back -/

variable (c : Dev nD)

/-- The result array as a function of the arguments on device `c`. -/
abbrev res : S256x512.Idx → EReal := result (taken (ids m c) (emb m c)) (w1 m c) (w2 m c) (bias m c)

/-- The body's output block at point t holds the roots 16t, …, 16t + 15. -/
theorem block_reads (t : Fin cfg0.N) :
    Reads (fun r d => flat (taken (ids m c) (emb m c)) (r * 300 + d)) (fun k d => flat (w1 m c) (k * 300 + d))
      (fun k i => flat (w2 m c) (k * 1024 + i)) (fun k => flat (bias m c) k)
      (out0_4 (iblk m c 0 t) (iblk m c 1 t) (iblk m c 2 t) (iblk m c 3 t)) 8 (16 * t.val) 16 := by
  have ht : t.val < 16 := lt_of_lt_of_eq t.isLt N_eq
  refine out_reads (16 * t.val) _ _ _ _ ?_ ?_ ?_ ?_
  · intro r d hr hd
    show flat (s := S16x256x384) (((cfg0.win 0).blk t).view.read (Elt Ideal) (V m c main_v2)) (r * 384 + d) = _
    rw [blk0_read _ t r d hr hd, act_flat m c _ d (by omega) hd]
    show _ = if d < 300 then flat (taken (ids m c) (emb m c)) ((256 * (16 * t.val) + r) * 300 + d) else 0
    rw [show 256 * (16 * t.val) + r = 4096 * t.val + r by omega]
  · intro d k hd hk
    show flat (s := S384x512) (((cfg0.win 1).blk t).view.read (Elt Ideal) (V m c main_v5)) (d * 512 + k) = _
    rw [blk1_read _ t, w1_flat m c d k hd hk]
  · intro j k hj hk
    show flat (s := S1024x512) (((cfg0.win 2).blk t).view.read (Elt Ideal) (V m c main_v7)) (j * 512 + k) = _
    rw [blk2_read _ t, w2_flat m c j k hj hk]
  · intro k _
    show flat (s := S1x512) (((cfg0.win 3).blk t).view.read (Elt Ideal) (V m c main_v8)) k = _
    rw [blk3_read _ t, bias_flat]

/-- What point t writes back is block t of the result. -/
theorem flushed_eq (t : Fin cfg0.N) :
    (dats m 0 c).flushed 4 t = ((cfg0.win 4).blk t).view.read (Elt Ideal) (res m c) := by
  rw [Value.flushed4]
  obtain ⟨-, -, -, -, -, -, -, -, -, e0, e1⟩ := idx_facts t
  have hR := block_reads m c t
  funext j
  revert j
  intro (j : S16x512.Idx)
  obtain ⟨b, k, rfl⟩ : ∃ (b : Fin 16) (k : Fin 512), j = ix2 b k := ⟨j 0, j 1, eq_ix2 j⟩
  show out0_4 (iblk m c 0 t) (iblk m c 1 t) (iblk m c 2 t) (iblk m c 3 t) (ix2 b k)
    = res m c (((cfg0.win 4).blk t).view.emb (ix2 b k))
  rw [← flat_ix2 (out0_4 (iblk m c 0 t) (iblk m c 1 t) (iblk m c 2 t) (iblk m c 3 t)) b k, hR b.val k.val b.isLt k.isLt]
  have c0 : ((((cfg0.win 4).blk t).view.emb (ix2 b k)) 0).val = 16 * t.val + b.val := by
    show win0_4.index t (0 : Fin 2) * 16 + 1 * b.val = _; omega
  have c1 : ((((cfg0.win 4).blk t).view.emb (ix2 b k)) 1).val = k.val := by
    show win0_4.index t (1 : Fin 2) * 512 + 1 * k.val = _; omega
  show _ = node _ _ _ _ 8 ((((cfg0.win 4).blk t).view.emb (ix2 b k)) 0).val ((((cfg0.win 4).blk t).view.emb (ix2 b k)) 1).val
  rw [c0, c1]

/-! ## The sixteen blocks tile the array -/

theorem mem_blk (t : Fin cfg0.N) (i : S256x512.Idx) :
    i ∈ ((cfg0.win 4).blk t).view.set ↔ ∀ a : Fin 2, win0_4.index t a * S16x512.size a ≤ (i a).val
      ∧ (i a).val < win0_4.index t a * S16x512.size a + S16x512.size a := by
  show i ∈ ((View.whole main_v9).slice (win0_4.rect t)).set ↔ _
  rw [View.set_slice_whole, Rect.mem_set_unit]
  exact Iff.rfl

/-- Row r lies in the block of point r / 16. -/
theorem cover (i : S256x512.Idx) : ∃ t : Fin cfg0.N, (cfg0.win 4).flush t = true ∧ i ∈ ((cfg0.win 4).blk t).view.set := by
  have hi0 : (i 0).val < 256 := (i 0).isLt
  have hi1 : (i 1).val < 512 := (i 1).isLt
  have hN := N_eq
  obtain ⟨t, ht⟩ : ∃ t : Fin cfg0.N, t.val = (i 0).val / 16 := ⟨⟨(i 0).val / 16, by omega⟩, rfl⟩
  obtain ⟨-, -, -, -, -, -, -, -, -, e0, e1⟩ := idx_facts t
  refine ⟨t, flush0_4 t, ?_⟩
  rw [mem_blk]
  intro a
  match a with
  | ⟨0, _⟩ =>
    show win0_4.index t (0 : Fin 2) * 16 ≤ (i 0).val ∧ (i 0).val < win0_4.index t (0 : Fin 2) * 16 + 16
    omega
  | ⟨1, _⟩ =>
    show win0_4.index t (1 : Fin 2) * 512 ≤ (i 1).val ∧ (i 1).val < win0_4.index t (1 : Fin 2) * 512 + 512
    omega

/-- The result array after the run. -/
theorem final : (dats m 0 c).arrAt 4 cfg0.N = res m c :=
  (dats m 0 c).arrAt_eq_of_cover 4 (res m c) (fun t _ => flushed_eq m c t) cover

/-- The kernel program's run: it ends with the result function of its arguments in the result array, and the
    arguments unchanged. -/
theorem run : θ_run defs (onTc (τ := τ) (main (F := Ideal))) ⟨m, fun _ => 0, ρ⟩ fun r => ∀ c : Dev nD,
      r.2.mem ((c : Thread nD τ).loc main_v9) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.TreeBlocks

end
-- ==== Proof.RefRun.lean ====
/- The reference program's @main as ONE straight line of 65 host operations, and its run.

   @main calls the outlined function @_take (which itself calls @_where) and then applies 42 operations of its own:
   the leaf product with the first weight, eight levels of "pair up neighbours, multiply by the second weight, add the
   bias", and a final reshape. A call executes the callee's body on the operands, so the program is the callee's 23
   operations (the one `select` of @_where among them) followed by @main's 42, each writing the buffer of the tensor
   value it defines. This file lists them, proves @main equal to that list run in order, and reads the run back:
   every weakly fair execution terminates with the result buffer at the operations' composed pure term of the five
   arguments' launch contents, the arguments unchanged. -/
import proofs.«152406_j25589415149692_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The straight line -/

/-- @main's operations in order, the call of @_take replaced by @_take's 23 operations over the buffers that call
    names (and, inside them, the call of @_where by its one `select`): first the word ids are wrapped (a negative id
    counts from the end of the table) and tested for being in range, and the table's rows are gathered at them; the
    gathered rows are kept where the id was in range and are NaN elsewhere. Then @main's own 42: the leaf product, the eight
    levels, the last reshape. 65 operations. -/
abbrev ops : List (HloOp τ sig (Elt F)) :=
  [ TRef.nullary main_call0.c (constantI S_ 32 0#32),
    TRef.unary main_call0.c main_call0.v0 (broadcastInDim S256x256 ![] bcast_S_S256x256),
    TRef.binary (.of main_arg0 : TRef sig ⟨S256x256, .i32⟩) main_call0.v0 main_call0.v1 (cmpi .slt),
    TRef.nullary main_call0.c_0 (constantI S_ 32 50000#32),
    TRef.unary main_call0.c_0 main_call0.v2 (broadcastInDim S256x256 ![] bcast_S_S256x256),
    TRef.binary (.of main_arg0 : TRef sig ⟨S256x256, .i32⟩) main_call0.v2 main_call0.v3 addi,
    TRef.ternary main_call0.v1 main_call0.v3 (.of main_arg0 : TRef sig ⟨S256x256, .i32⟩) main_call0.call0.v0 select,
    TRef.unary main_call0.call0.v0 main_call0.v5 (broadcastInDim S256x256x1 ![0, 1] bcast_S256x256_S256x256x1_0_1),
    TRef.nullary main_call0.c_1 (constantI S1 32 49999#32),
    TRef.nullary main_call0.c_2 (constantI S_ 32 0#32),
    TRef.unary main_call0.c_2 main_call0.v6 (broadcastInDim S256x256x1 ![] bcast_S_S256x256x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S256x256x1 ![0, 1, 2] bcast_S1x1x1_S256x256x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x256x1_S256x256_d2 h_S_),
    TRef.binary (.of main_arg1 : TRef sig ⟨S50000x300, .f32⟩) main_call0.v5 main_call0.v13 (fun x i => Host.gather gather_S50000x300_S256x256x1_S256x256x300_2_0_n_n_0_2_1300 x i),
    TRef.unary main_call0.v12 main_call0.v14 (broadcastInDim S256x256x300 ![0, 1] bcast_S256x256_S256x256x300_0_1),
    TRef.nullary main_call0.cst (constant S_ .f32 0x7FC00000#32),
    TRef.unary main_call0.cst main_call0.v15 (broadcastInDim S256x256x300 ![] bcast_S_S256x256x300),
    TRef.ternary main_call0.v14 main_call0.v13 main_call0.v15 main_call0.v16 select,
    binary main_v0 main_arg2 main_v1 ((fun l r => Host.dotGeneral dot_S256x256x300_S512x300_S256x256x512_2_1_01_0_n_n none l r) : (⟨S256x256x300, .f32⟩ : BufTy).Contents (Elt F) → (⟨S512x300, .f32⟩ : BufTy).Contents (Elt F) → (⟨S256x256x512, .f32⟩ : BufTy).Contents (Elt F)),
    reshape main_v1 main_v2 rfl shapeCasts_S256x256x512_S256x128x1024,
    binary main_v2 main_arg3 main_v3 ((fun l r => Host.dotGeneral dot_S256x128x1024_S512x1024_S256x128x512_2_1_01_0_n_n none l r) : (⟨S256x128x1024, .f32⟩ : BufTy).Contents (Elt F) → (⟨S512x1024, .f32⟩ : BufTy).Contents (Elt F) → (⟨S256x128x512, .f32⟩ : BufTy).Contents (Elt F)),
    unary main_arg4 main_v4 (broadcastInDim S1x1x512 ![2] bcast_S512_S1x1x512_2 : (⟨S512, .f32⟩ : BufTy).Contents (Elt F) → (⟨S1x1x512, .f32⟩ : BufTy).Contents (Elt F)),
    unary main_v4 main_v5 (broadcastInDim S256x128x512 ![0, 1, 2] bcast_S1x1x512_S256x128x512_0_1_2 : (⟨S1x1x512, .f32⟩ : BufTy).Contents (Elt F) → (⟨S256x128x512, .f32⟩ : BufTy).Contents (Elt F)),
    binary main_v3 main_v5 main_v6 (addf : (⟨S256x128x512, .f32⟩ : BufTy).Contents (Elt F) → (⟨S256x128x512, .f32⟩ : BufTy).Contents (Elt F) → (⟨S256x128x512, .f32⟩ : BufTy).Contents (Elt F)),
    reshape main_v6 main_v7 rfl shapeCasts_S256x128x512_S256x64x1024,
    binary main_v7 main_arg3 main_v8 ((fun l r => Host.dotGeneral dot_S256x64x1024_S512x1024_S256x64x512_2_1_01_0_n_n none l r) : (⟨S256x64x1024, .f32⟩ : BufTy).Contents (Elt F) → (⟨S512x1024, .f32⟩ : BufTy).Contents (Elt F) → (⟨S256x64x512, .f32⟩ : BufTy).Contents (Elt F)),
    unary main_arg4 main_v9 (broadcastInDim S1x1x512 ![2] bcast_S512_S1x1x512_2 : (⟨S512, .f32⟩ : BufTy).Contents (Elt F) → (⟨S1x1x512, .f32⟩ : BufTy).Contents (Elt F)),
    unary main_v9 main_v10 (broadcastInDim S256x64x512 ![0, 1, 2] bcast_S1x1x512_S256x64x512_0_1_2 : (⟨S1x1x512, .f32⟩ : BufTy).Contents (Elt F) → (⟨S256x64x512, .f32⟩ : BufTy).Contents (Elt F)),
    binary main_v8 main_v10 main_v11 (addf : (⟨S256x64x512, .f32⟩ : BufTy).Contents (Elt F) → (⟨S256x64x512, .f32⟩ : BufTy).Contents (Elt F) → (⟨S256x64x512, .f32⟩ : BufTy).Contents (Elt F)),
    reshape main_v11 main_v12 rfl shapeCasts_S256x64x512_S256x32x1024,
    binary main_v12 main_arg3 main_v13 ((fun l r => Host.dotGeneral dot_S256x32x1024_S512x1024_S256x32x512_2_1_01_0_n_n none l r) : (⟨S256x32x1024, .f32⟩ : BufTy).Contents (Elt F) → (⟨S512x1024, .f32⟩ : BufTy).Contents (Elt F) → (⟨S256x32x512, .f32⟩ : BufTy).Contents (Elt F)),
    unary main_arg4 main_v14 (broadcastInDim S1x1x512 ![2] bcast_S512_S1x1x512_2 : (⟨S512, .f32⟩ : BufTy).Contents (Elt F) → (⟨S1x1x512, .f32⟩ : BufTy).Contents (Elt F)),
    unary main_v14 main_v15 (broadcastInDim S256x32x512 ![0, 1, 2] bcast_S1x1x512_S256x32x512_0_1_2 : (⟨S1x1x512, .f32⟩ : BufTy).Contents (Elt F) → (⟨S256x32x512, .f32⟩ : BufTy).Contents (Elt F)),
    binary main_v13 main_v15 main_v16 (addf : (⟨S256x32x512, .f32⟩ : BufTy).Contents (Elt F) → (⟨S256x32x512, .f32⟩ : BufTy).Contents (Elt F) → (⟨S256x32x512, .f32⟩ : BufTy).Contents (Elt F)),
    reshape main_v16 main_v17 rfl shapeCasts_S256x32x512_S256x16x1024,
    binary main_v17 main_arg3 main_v18 ((fun l r => Host.dotGeneral dot_S256x16x1024_S512x1024_S256x16x512_2_1_01_0_n_n none l r) : (⟨S256x16x1024, .f32⟩ : BufTy).Contents (Elt F) → (⟨S512x1024, .f32⟩ : BufTy).Contents (Elt F) → (⟨S256x16x512, .f32⟩ : BufTy).Contents (Elt F)),
    unary main_arg4 main_v19 (broadcastInDim S1x1x512 ![2] bcast_S512_S1x1x512_2 : (⟨S512, .f32⟩ : BufTy).Contents (Elt F) → (⟨S1x1x512, .f32⟩ : BufTy).Contents (Elt F)),
    unary main_v19 main_v20 (broadcastInDim S256x16x512 ![0, 1, 2] bcast_S1x1x512_S256x16x512_0_1_2 : (⟨S1x1x512, .f32⟩ : BufTy).Contents (Elt F) → (⟨S256x16x512, .f32⟩ : BufTy).Contents (Elt F)),
    binary main_v18 main_v20 main_v21 (addf : (⟨S256x16x512, .f32⟩ : BufTy).Contents (Elt F) → (⟨S256x16x512, .f32⟩ : BufTy).Contents (Elt F) → (⟨S256x16x512, .f32⟩ : BufTy).Contents (Elt F)),
    reshape main_v21 main_v22 rfl shapeCasts_S256x16x512_S256x8x1024,
    binary main_v22 main_arg3 main_v23 ((fun l r => Host.dotGeneral dot_S256x8x1024_S512x1024_S256x8x512_2_1_01_0_n_n none l r) : (⟨S256x8x1024, .f32⟩ : BufTy).Contents (Elt F) → (⟨S512x1024, .f32⟩ : BufTy).Contents (Elt F) → (⟨S256x8x512, .f32⟩ : BufTy).Contents (Elt F)),
    unary main_arg4 main_v24 (broadcastInDim S1x1x512 ![2] bcast_S512_S1x1x512_2 : (⟨S512, .f32⟩ : BufTy).Contents (Elt F) → (⟨S1x1x512, .f32⟩ : BufTy).Contents (Elt F)),
    unary main_v24 main_v25 (broadcastInDim S256x8x512 ![0, 1, 2] bcast_S1x1x512_S256x8x512_0_1_2 : (⟨S1x1x512, .f32⟩ : BufTy).Contents (Elt F) → (⟨S256x8x512, .f32⟩ : BufTy).Contents (Elt F)),
    binary main_v23 main_v25 main_v26 (addf : (⟨S256x8x512, .f32⟩ : BufTy).Contents (Elt F) → (⟨S256x8x512, .f32⟩ : BufTy).Contents (Elt F) → (⟨S256x8x512, .f32⟩ : BufTy).Contents (Elt F)),
    reshape main_v26 main_v27 rfl shapeCasts_S256x8x512_S256x4x1024,
    binary main_v27 main_arg3 main_v28 ((fun l r => Host.dotGeneral dot_S256x4x1024_S512x1024_S256x4x512_2_1_01_0_n_n none l r) : (⟨S256x4x1024, .f32⟩ : BufTy).Contents (Elt F) → (⟨S512x1024, .f32⟩ : BufTy).Contents (Elt F) → (⟨S256x4x512, .f32⟩ : BufTy).Contents (Elt F)),
    unary main_arg4 main_v29 (broadcastInDim S1x1x512 ![2] bcast_S512_S1x1x512_2 : (⟨S512, .f32⟩ : BufTy).Contents (Elt F) → (⟨S1x1x512, .f32⟩ : BufTy).Contents (Elt F)),
    unary main_v29 main_v30 (broadcastInDim S256x4x512 ![0, 1, 2] bcast_S1x1x512_S256x4x512_0_1_2 : (⟨S1x1x512, .f32⟩ : BufTy).Contents (Elt F) → (⟨S256x4x512, .f32⟩ : BufTy).Contents (Elt F)),
    binary main_v28 main_v30 main_v31 (addf : (⟨S256x4x512, .f32⟩ : BufTy).Contents (Elt F) → (⟨S256x4x512, .f32⟩ : BufTy).Contents (Elt F) → (⟨S256x4x512, .f32⟩ : BufTy).Contents (Elt F)),
    reshape main_v31 main_v32 rfl shapeCasts_S256x4x512_S256x2x1024,
    binary main_v32 main_arg3 main_v33 ((fun l r => Host.dotGeneral dot_S256x2x1024_S512x1024_S256x2x512_2_1_01_0_n_n none l r) : (⟨S256x2x1024, .f32⟩ : BufTy).Contents (Elt F) → (⟨S512x1024, .f32⟩ : BufTy).Contents (Elt F) → (⟨S256x2x512, .f32⟩ : BufTy).Contents (Elt F)),
    unary main_arg4 main_v34 (broadcastInDim S1x1x512 ![2] bcast_S512_S1x1x512_2 : (⟨S512, .f32⟩ : BufTy).Contents (Elt F) → (⟨S1x1x512, .f32⟩ : BufTy).Contents (Elt F)),
    unary main_v34 main_v35 (broadcastInDim S256x2x512 ![0, 1, 2] bcast_S1x1x512_S256x2x512_0_1_2 : (⟨S1x1x512, .f32⟩ : BufTy).Contents (Elt F) → (⟨S256x2x512, .f32⟩ : BufTy).Contents (Elt F)),
    binary main_v33 main_v35 main_v36 (addf : (⟨S256x2x512, .f32⟩ : BufTy).Contents (Elt F) → (⟨S256x2x512, .f32⟩ : BufTy).Contents (Elt F) → (⟨S256x2x512, .f32⟩ : BufTy).Contents (Elt F)),
    reshape main_v36 main_v37 rfl shapeCasts_S256x2x512_S256x1x1024,
    binary main_v37 main_arg3 main_v38 ((fun l r => Host.dotGeneral dot_S256x1x1024_S512x1024_S256x1x512_2_1_01_0_n_n none l r) : (⟨S256x1x1024, .f32⟩ : BufTy).Contents (Elt F) → (⟨S512x1024, .f32⟩ : BufTy).Contents (Elt F) → (⟨S256x1x512, .f32⟩ : BufTy).Contents (Elt F)),
    unary main_arg4 main_v39 (broadcastInDim S1x1x512 ![2] bcast_S512_S1x1x512_2 : (⟨S512, .f32⟩ : BufTy).Contents (Elt F) → (⟨S1x1x512, .f32⟩ : BufTy).Contents (Elt F)),
    unary main_v39 main_v40 (broadcastInDim S256x1x512 ![0, 1, 2] bcast_S1x1x512_S256x1x512_0_1_2 : (⟨S1x1x512, .f32⟩ : BufTy).Contents (Elt F) → (⟨S256x1x512, .f32⟩ : BufTy).Contents (Elt F)),
    binary main_v38 main_v40 main_v41 (addf : (⟨S256x1x512, .f32⟩ : BufTy).Contents (Elt F) → (⟨S256x1x512, .f32⟩ : BufTy).Contents (Elt F) → (⟨S256x1x512, .f32⟩ : BufTy).Contents (Elt F)),
    reshape main_v41 main_v42 rfl shapeCasts_S256x1x512_S256x512 ]

-- sixty-five binds re-associated: the rewrite under the chain recurses once per statement
set_option maxRecDepth 2048 in
/-- @main is that straight line: with the two functions' bodies unfolded at their calls, both sides are one chain of
    `hlo` steps once sequencing is re-associated (`bind_assoc`, `pure_bind`); a record's field at a literal record
    is the buffer it names. -/
theorem main_eq (c : Dev nD) : main (F := F) c = seq ops := by
  simp only [main, fn_take.body, fn_where.body, seq, bind_assoc, pure_bind]

/-- The signature scopes no TensorCore buffer: every tensor value's buffer lives for the whole program. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    reshape_bufs_sub .., binary_bufs_sub .., unary_bufs_sub .., unary_bufs_sub .., binary_bufs_sub .., reshape_bufs_sub ..,
    binary_bufs_sub .., unary_bufs_sub .., unary_bufs_sub .., binary_bufs_sub .., reshape_bufs_sub .., binary_bufs_sub ..,
    unary_bufs_sub .., unary_bufs_sub .., binary_bufs_sub .., reshape_bufs_sub .., binary_bufs_sub .., unary_bufs_sub ..,
    unary_bufs_sub .., binary_bufs_sub .., reshape_bufs_sub .., binary_bufs_sub .., unary_bufs_sub .., unary_bufs_sub ..,
    binary_bufs_sub .., reshape_bufs_sub .., binary_bufs_sub .., unary_bufs_sub .., unary_bufs_sub .., binary_bufs_sub ..,
    reshape_bufs_sub .., binary_bufs_sub .., unary_bufs_sub .., unary_bufs_sub .., binary_bufs_sub .., reshape_bufs_sub ..,
    binary_bufs_sub .., unary_bufs_sub .., unary_bufs_sub .., binary_bufs_sub .., reshape_bufs_sub ..⟩

/-! ## The result as a pure term

Three pieces, each a function of tensors only: the embedding lookup, the leaf product, the eight levels. -/

/-- The word ids as row indices of the table, in the shape the gather reads them (a trailing axis of size one): an id
    below zero has the table's 50000 rows added to it — it counts from the end —, any other id is taken as it is. -/
def wrapped (ids : (⟨S256x256, .i32⟩ : BufTy).Contents (Elt F)) : (⟨S256x256x1, .i32⟩ : BufTy).Contents (Elt F) :=
  broadcastInDim S256x256x1 ![0, 1] bcast_S256x256_S256x256x1_0_1
    (select (cmpi .slt ids (broadcastInDim S256x256 ![] bcast_S_S256x256 (constantI S_ 32 0#32)))
      (addi ids (broadcastInDim S256x256 ![] bcast_S_S256x256 (constantI S_ 32 50000#32))) ids)

/-- Where the wrapped id is a row of the table: `0 ≤ id ≤ 49999`, as a mask over the 256×256 positions (the
    conjunction over the trailing axis of size one is of that one test). -/
def inRange (ids : (⟨S256x256, .i32⟩ : BufTy).Contents (Elt F)) : (⟨S256x256, .i1⟩ : BufTy).Contents (Elt F) :=
  Host.reduce IntOp.andi
    (andi (cmpi .sge (wrapped (F := F) ids) (broadcastInDim S256x256x1 ![] bcast_S_S256x256x1 (constantI S_ 32 0#32)))
      (cmpi .sle (wrapped (F := F) ids)
        (broadcastInDim S256x256x1 ![0, 1, 2] bcast_S1x1x1_S256x256x1_0_1_2
          (broadcastInDim S1x1x1 ![2] bcast_S1_S1x1x1_2 (constantI S1 32 49999#32)))))
    (constantI S_ 1 1#1) reducesTo_S256x256x1_S256x256_d2 h_S_

/-- @_take's result: the embedding rows selected by the word ids — row `wrapped id` of the table at each of the
    256×256 positions —, and NaN in all 300 columns where the id is out of range. -/
def taken (ids : (⟨S256x256, .i32⟩ : BufTy).Contents (Elt F)) (emb : (⟨S50000x300, .f32⟩ : BufTy).Contents (Elt F)) : (⟨S256x256x300, .f32⟩ : BufTy).Contents (Elt F) :=
  select (broadcastInDim S256x256x300 ![0, 1] bcast_S256x256_S256x256x300_0_1 (inRange (F := F) ids))
    (Host.gather gather_S50000x300_S256x256x1_S256x256x300_2_0_n_n_0_2_1300 emb (wrapped (F := F) ids))
    (broadcastInDim S256x256x300 ![] bcast_S_S256x256x300 (constant S_ .f32 0x7FC00000#32))

/-- The leaf product: each of the 256×256 embedded rows (300 numbers) times the first weight, `x · W1ᵀ`, 512 numbers
    per position. -/
def leaf (x : (⟨S256x256x300, .f32⟩ : BufTy).Contents (Elt F)) (W1 : (⟨S512x300, .f32⟩ : BufTy).Contents (Elt F)) : (⟨S256x256x512, .f32⟩ : BufTy).Contents (Elt F) :=
  Host.dotGeneral dot_S256x256x300_S512x300_S256x256x512_2_1_01_0_n_n none x W1

/-- The eight levels over the leaves and the last reshape. One level reads the `n` nodes of a row (512 numbers each)
    as `n/2` neighbouring pairs (1024 numbers each: a reshape, the elements in the same row-major order), multiplies
    each pair by the second weight, `· W2ᵀ`, and adds the bias to every node: `n` goes 256, 128, …, 2, 1. The one
    node left per row is the result, its unit axis dropped. -/
def out (h0 : (⟨S256x256x512, .f32⟩ : BufTy).Contents (Elt F)) (W2 : (⟨S512x1024, .f32⟩ : BufTy).Contents (Elt F)) (b2 : (⟨S512, .f32⟩ : BufTy).Contents (Elt F)) : (⟨S256x512, .f32⟩ : BufTy).Contents (Elt F) :=
  shapeCast S256x512 (addf (Host.dotGeneral dot_S256x1x1024_S512x1024_S256x1x512_2_1_01_0_n_n none
          (shapeCast S256x1x1024 (addf (Host.dotGeneral dot_S256x2x1024_S512x1024_S256x2x512_2_1_01_0_n_n none
          (shapeCast S256x2x1024 (addf (Host.dotGeneral dot_S256x4x1024_S512x1024_S256x4x512_2_1_01_0_n_n none
          (shapeCast S256x4x1024 (addf (Host.dotGeneral dot_S256x8x1024_S512x1024_S256x8x512_2_1_01_0_n_n none
          (shapeCast S256x8x1024 (addf (Host.dotGeneral dot_S256x16x1024_S512x1024_S256x16x512_2_1_01_0_n_n none
          (shapeCast S256x16x1024 (addf (Host.dotGeneral dot_S256x32x1024_S512x1024_S256x32x512_2_1_01_0_n_n none
          (shapeCast S256x32x1024 (addf (Host.dotGeneral dot_S256x64x1024_S512x1024_S256x64x512_2_1_01_0_n_n none
          (shapeCast S256x64x1024 (addf (Host.dotGeneral dot_S256x128x1024_S512x1024_S256x128x512_2_1_01_0_n_n none
          (shapeCast S256x128x1024 h0 shapeCasts_S256x256x512_S256x128x1024) W2)
        (broadcastInDim S256x128x512 ![0, 1, 2] bcast_S1x1x512_S256x128x512_0_1_2 (broadcastInDim S1x1x512 ![2] bcast_S512_S1x1x512_2 b2))) shapeCasts_S256x128x512_S256x64x1024) W2)
        (broadcastInDim S256x64x512 ![0, 1, 2] bcast_S1x1x512_S256x64x512_0_1_2 (broadcastInDim S1x1x512 ![2] bcast_S512_S1x1x512_2 b2))) shapeCasts_S256x64x512_S256x32x1024) W2)
        (broadcastInDim S256x32x512 ![0, 1, 2] bcast_S1x1x512_S256x32x512_0_1_2 (broadcastInDim S1x1x512 ![2] bcast_S512_S1x1x512_2 b2))) shapeCasts_S256x32x512_S256x16x1024) W2)
        (broadcastInDim S256x16x512 ![0, 1, 2] bcast_S1x1x512_S256x16x512_0_1_2 (broadcastInDim S1x1x512 ![2] bcast_S512_S1x1x512_2 b2))) shapeCasts_S256x16x512_S256x8x1024) W2)
        (broadcastInDim S256x8x512 ![0, 1, 2] bcast_S1x1x512_S256x8x512_0_1_2 (broadcastInDim S1x1x512 ![2] bcast_S512_S1x1x512_2 b2))) shapeCasts_S256x8x512_S256x4x1024) W2)
        (broadcastInDim S256x4x512 ![0, 1, 2] bcast_S1x1x512_S256x4x512_0_1_2 (broadcastInDim S1x1x512 ![2] bcast_S512_S1x1x512_2 b2))) shapeCasts_S256x4x512_S256x2x1024) W2)
        (broadcastInDim S256x2x512 ![0, 1, 2] bcast_S1x1x512_S256x2x512_0_1_2 (broadcastInDim S1x1x512 ![2] bcast_S512_S1x1x512_2 b2))) shapeCasts_S256x2x512_S256x1x1024) W2)
        (broadcastInDim S256x1x512 ![0, 1, 2] bcast_S1x1x512_S256x1x512_0_1_2 (broadcastInDim S1x1x512 ![2] bcast_S512_S1x1x512_2 b2))) shapeCasts_S256x1x512_S256x512

/-! ## The run read back

The fold of the operations' results over any contents `V`, read at the buffers that matter. Each is a computation: the
fold unrolled, every operation's result at its own buffer is its function of its operands' contents and at any other
buffer what was there; the gather, the reduction and the products stay folded throughout — nothing here looks inside
them. -/

attribute [local irreducible] Host.reduce Host.gather FloatOps.dotGeneral in
set_option maxRecDepth 8192 in
/-- The fold at @_take's result buffer is `taken` of the two arguments it reads. -/
theorem taken_eq (V : Valuation τ sig (Elt F)) :
    after ops V (main_v0 : DevRef τ sig) = taken (V (main_arg0 : DevRef τ sig)) (V (main_arg1 : DevRef τ sig)) := by
  after_results_simp
  rfl

attribute [local irreducible] Host.reduce Host.gather FloatOps.dotGeneral in
set_option maxRecDepth 8192 in
/-- The fold at the first product's buffer is the leaf product of the looked-up rows and the first weight. -/
theorem leaf_eq (V : Valuation τ sig (Elt F)) :
    after ops V (main_v1 : DevRef τ sig)
      = leaf (taken (V (main_arg0 : DevRef τ sig)) (V (main_arg1 : DevRef τ sig))) (V (main_arg2 : DevRef τ sig)) := by
  after_results_simp
  rfl

attribute [local irreducible] Host.reduce Host.gather FloatOps.dotGeneral in
set_option maxRecDepth 8192 in
-- eight nested levels, each compared operand by operand
set_option maxHeartbeats 1000000 in
/-- The fold at the result buffer is the eight levels over the leaves. A reshape's result is the operand's elements
    read at the new shape, `shapeCast`, index by index. -/
theorem out_eq (V : Valuation τ sig (Elt F)) :
    after ops V (main_v42 : DevRef τ sig)
      = out (leaf (taken (V (main_arg0 : DevRef τ sig)) (V (main_arg1 : DevRef τ sig))) (V (main_arg2 : DevRef τ sig)))
          (V (main_arg3 : DevRef τ sig)) (V (main_arg4 : DevRef τ sig)) := by
  after_results_simp
  rfl

/-- No operation writes argument 0's buffer: it holds at the end what it held at the start. -/
theorem arg0_eq (V : Valuation τ sig (Elt F)) :
    after ops V (main_arg0 : DevRef τ sig) = V (main_arg0 : DevRef τ sig) := by
  after_results_simp

/-- No operation writes argument 1's buffer: it holds at the end what it held at the start. -/
theorem arg1_eq (V : Valuation τ sig (Elt F)) :
    after ops V (main_arg1 : DevRef τ sig) = V (main_arg1 : DevRef τ sig) := by
  after_results_simp

/-- No operation writes argument 2's buffer: it holds at the end what it held at the start. -/
theorem arg2_eq (V : Valuation τ sig (Elt F)) :
    after ops V (main_arg2 : DevRef τ sig) = V (main_arg2 : DevRef τ sig) := by
  after_results_simp

/-- No operation writes argument 3's buffer: it holds at the end what it held at the start. -/
theorem arg3_eq (V : Valuation τ sig (Elt F)) :
    after ops V (main_arg3 : DevRef τ sig) = V (main_arg3 : DevRef τ sig) := by
  after_results_simp

/-- No operation writes argument 4's buffer: it holds at the end what it held at the start. -/
theorem arg4_eq (V : Valuation τ sig (Elt F)) :
    after ops V (main_arg4 : DevRef τ sig) = V (main_arg4 : DevRef τ sig) := by
  after_results_simp

/-- On every device, for any float values, from any memory with zero counters: every weakly fair execution of
    @main terminates with the result buffer at `out (leaf (taken ids emb) W1) W2 b2` of the five arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = out (leaf (taken (m ((c.tc : Thread nD τ).loc main_arg0)) (m ((c.tc : Thread nD τ).loc main_arg1))) (m ((c.tc : Thread nD τ).loc main_arg2)))
                (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v42).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference's result is the tree's roots.

  The reference contracts the gathered embeddings [256, 256, 300] with the first weight, and then eight times views
  the [256, n, 512] level as [256, n/2, 1024] (the same row-major data: two sibling rows side by side), contracts with
  the second weight and adds the bias broadcast over trees and nodes; the last level [256, 1, 512] is viewed as
  [256, 512].  Each step is the level step of the tree, over all 256 trees at once.
-/
import proofs.«152406_j25589415149692_2_alg».proof.Proof.Tree
import proofs.«152406_j25589415149692_2_alg».proof.Proof.RefRun

noncomputable section

open scoped BigOperators

namespace Cert.ReferenceIdeal.RefValue

open Cert.ReferenceIdeal Cert.ReferenceIdeal.Gen Idealize.ShloMosaic Idealize.ShloMosaic.ValueIdx Cert.Tree
open Cert.ReferenceIdeal.RefRun

/-! The nine contractions are [256, n, K] · [512, K] over the last axes. -/

theorem last0 : Last3 dot_S256x256x300_S512x300_S256x256x512_2_1_01_0_n_n := ⟨rfl, rfl, rfl, rfl, rfl, rfl⟩
theorem last1 : Last3 dot_S256x128x1024_S512x1024_S256x128x512_2_1_01_0_n_n := ⟨rfl, rfl, rfl, rfl, rfl, rfl⟩
theorem last2 : Last3 dot_S256x64x1024_S512x1024_S256x64x512_2_1_01_0_n_n := ⟨rfl, rfl, rfl, rfl, rfl, rfl⟩
theorem last3 : Last3 dot_S256x32x1024_S512x1024_S256x32x512_2_1_01_0_n_n := ⟨rfl, rfl, rfl, rfl, rfl, rfl⟩
theorem last4 : Last3 dot_S256x16x1024_S512x1024_S256x16x512_2_1_01_0_n_n := ⟨rfl, rfl, rfl, rfl, rfl, rfl⟩
theorem last5 : Last3 dot_S256x8x1024_S512x1024_S256x8x512_2_1_01_0_n_n := ⟨rfl, rfl, rfl, rfl, rfl, rfl⟩
theorem last6 : Last3 dot_S256x4x1024_S512x1024_S256x4x512_2_1_01_0_n_n := ⟨rfl, rfl, rfl, rfl, rfl, rfl⟩
theorem last7 : Last3 dot_S256x2x1024_S512x1024_S256x2x512_2_1_01_0_n_n := ⟨rfl, rfl, rfl, rfl, rfl, rfl⟩
theorem last8 : Last3 dot_S256x1x1024_S512x1024_S256x1x512_2_1_01_0_n_n := ⟨rfl, rfl, rfl, rfl, rfl, rfl⟩

set_option maxRecDepth 4096 in
/-- The reference's result, as a term of the gathered embeddings, the weights and the bias, is the result function. -/
theorem out_eq_result (x : FVec Ideal S256x256x300 .f32) (W1 : FVec Ideal S512x300 .f32) (W2 : FVec Ideal S512x1024 .f32)
    (b2 : FVec Ideal S512 .f32) :
    @Eq (S256x512.Idx → EReal) (out (F := Ideal) (leaf (F := Ideal) x W1) W2 b2) (result x W1 W2 b2) := by
  refine eq_result_of_reads _ ?_
  unfold out leaf
  have hb : ∀ (B : ℕ) (h2 : S1x1x512.BroadcastsInDim ⟨3, ![256, B, 512]⟩ ![0, 1, 2]) (a : Fin 256) (b : Fin B) (c : Fin 512),
      broadcastInDim ⟨3, ![256, B, 512]⟩ ![0, 1, 2] h2 (broadcastInDim S1x1x512 ![2] bcast_S512_S1x1x512_2 b2) (ix3 a b c)
        = (fun k => flat b2 k) c.val :=
    fun B h2 a b c => (flat_broadcastVec b2 bcast_S512_S1x1x512_2 h2 a b c).trans (flat_ix1 b2 c).symm
  -- the last view, then down the eight levels
  refine Reads.of_flat (flat_shapeCast _ _) ?_
  refine reads_succ (R2 := 512) rfl (isLevelOf_dot _ last8 _ _ _ (fun _ _ _ _ => rfl) (hb 1 _)) (flat_shapeCast _ _) ?_
  refine reads_succ (R2 := 1024) rfl (isLevelOf_dot _ last7 _ _ _ (fun _ _ _ _ => rfl) (hb 2 _)) (flat_shapeCast _ _) ?_
  refine reads_succ (R2 := 2048) rfl (isLevelOf_dot _ last6 _ _ _ (fun _ _ _ _ => rfl) (hb 4 _)) (flat_shapeCast _ _) ?_
  refine reads_succ (R2 := 4096) rfl (isLevelOf_dot _ last5 _ _ _ (fun _ _ _ _ => rfl) (hb 8 _)) (flat_shapeCast _ _) ?_
  refine reads_succ (R2 := 8192) rfl (isLevelOf_dot _ last4 _ _ _ (fun _ _ _ _ => rfl) (hb 16 _)) (flat_shapeCast _ _) ?_
  refine reads_succ (R2 := 16384) rfl (isLevelOf_dot _ last3 _ _ _ (fun _ _ _ _ => rfl) (hb 32 _)) (flat_shapeCast _ _) ?_
  refine reads_succ (R2 := 32768) rfl (isLevelOf_dot _ last2 _ _ _ (fun _ _ _ _ => rfl) (hb 64 _)) (flat_shapeCast _ _) ?_
  refine reads_succ (R2 := 65536) rfl (isLevelOf_dot _ last1 _ _ _ (fun _ _ _ _ => rfl) (hb 128 _)) (flat_shapeCast _ _) ?_
  -- the leaf contraction
  exact reads_zero_dot _ last0 _ _ (fun _ _ _ _ => rfl) (fun _ _ _ _ => rfl)

end Cert.ReferenceIdeal.RefValue

end
-- ==== Proof.lean ====
/-
  The claim: the tree-reduction kernel and its jnp reference end with the same [256, 512] result at the extended
  reals, from memories that agree on the five arguments.

  The value.  256 complete binary trees of 256 leaves each.  A leaf's vector is the embedding row of its word id
  (300 numbers, gathered from the table; NaN rows for ids out of range) times the first weight; an inner node's
  vector is the concatenation of its two children's vectors times the second weight, plus the bias; the result is the
  root of each tree (Proof/Tree.lean, `node` and `result`).

  The reference computes this for all trees at once, level by level (Proof/RefRun.lean: its run; Proof/RefValue.lean:
  its term is `result`).  The kernel gathers the same rows on the host, zero-pads rows and first weight from 300 to
  384 along the contracted axis, transposes the weights, and hands sixteen trees per grid point to a body that does
  the leaf product and the eight levels back to back (Proof/KernelHost.lean: the staged arrays; Proof/KernelValue.lean:
  the body's block; Proof/KernelBlocks.lean: the sixteen blocks tile the result).  Changes of float format are the
  identity on the extended reals, the padded terms are 0 · 0, and a level is the same sum on both sides once the tensors
  are read row-major (Proof/Flat.lean, Proof/Dots.lean), so the two results are one function of the arguments; no
  finiteness of the inputs is used.

  The three frames: the two kernel programs' are the generated frame certificates; the reference's is its run with
  the result dropped.  The idealization rewrote no operation, so `preserves` is trivial.
-/
import proofs.«152406_j25589415149692_2_alg».proof.Defs
import proofs.«152406_j25589415149692_2_alg».proof.Proof.Gen.Kernel
import proofs.«152406_j25589415149692_2_alg».proof.Proof.Gen.Kernel.Skeleton
import proofs.«152406_j25589415149692_2_alg».proof.Proof.Gen.Kernel.Launch
import proofs.«152406_j25589415149692_2_alg».proof.Proof.Gen.Kernel.Points
import proofs.«152406_j25589415149692_2_alg».proof.Proof.Gen.Kernel.Frame
import proofs.«152406_j25589415149692_2_alg».proof.Proof.Gen.KernelIdeal
import proofs.«152406_j25589415149692_2_alg».proof.Proof.Gen.KernelIdeal.Skeleton
import proofs.«152406_j25589415149692_2_alg».proof.Proof.Gen.KernelIdeal.Launch
import proofs.«152406_j25589415149692_2_alg».proof.Proof.Gen.KernelIdeal.Points
import proofs.«152406_j25589415149692_2_alg».proof.Proof.Gen.KernelIdeal.Frame
import proofs.«152406_j25589415149692_2_alg».proof.Proof.Gen.KernelIdeal.Value
import proofs.«152406_j25589415149692_2_alg».proof.Proof.Gen.ReferenceIdeal
import proofs.«152406_j25589415149692_2_alg».proof.Proof.Gen.Pre_finite_inputs
import proofs.«152406_j25589415149692_2_alg».proof.Proof.KernelBlocks
import proofs.«152406_j25589415149692_2_alg».proof.Proof.RefRun
import proofs.«152406_j25589415149692_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The two programs gather the embedding rows by the same operations: the same function of the ids and the table. -/
theorem taken_agree (ids : IVec Cert.KernelIdeal.S256x256 32) (emb : FVec Ideal Cert.KernelIdeal.S50000x300 .f32) :
    @Eq (Cert.KernelIdeal.S256x256x300.Idx → EReal) (Cert.ReferenceIdeal.RefRun.taken (F := Ideal) ids emb)
      (Cert.KernelIdeal.TreeHost.taken ids emb) := rfl

/-- Both programs end with the result function of the arguments. -/
theorem algebraic : Cert.algebraic_KernelIdeal_ReferenceIdeal := by
  intro m ρ m' ρ' _ hagree
  refine ⟨fun c => Cert.KernelIdeal.TreeBlocks.res m c, Cert.KernelIdeal.TreeBlocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2,
    Cert.ReferenceIdeal.RefValue.out_eq_result, taken_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
